-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x50 : Shape := ⟨3, ![64, 512, 50]⟩
abbrev S2x2000000 : Shape := ⟨2, ![2, 2000000]⟩
abbrev S2x20 : Shape := ⟨2, ![2, 20]⟩
abbrev S20 : Shape := ⟨1, ![20]⟩
abbrev S20x2 : Shape := ⟨2, ![20, 2]⟩
abbrev S2 : Shape := ⟨1, ![2]⟩
abbrev S_ : Shape := ⟨0, ![]⟩

class Facts : Prop where
  bcast_S_S64x512x50 : S_.BroadcastsInDim S64x512x50 (![] : Fin 0 → Fin S64x512x50.rank)
  reducesTo_S64x512x50_S_d0_1_2 : S64x512x50.ReducesTo [0, 1, 2] S_
  h_S_ : 0 < S_.numel
  bcast_S_S2x20 : S_.BroadcastsInDim S2x20 (![] : Fin 0 → Fin S2x20.rank)
  reducesTo_S2x20_S_d0_1 : S2x20.ReducesTo [0, 1] S_
  bcast_S_S20 : S_.BroadcastsInDim S20 (![] : Fin 0 → Fin S20.rank)
  reducesTo_S20_S_d0 : S20.ReducesTo [0] S_
  bcast_S_S20x2 : S_.BroadcastsInDim S20x2 (![] : Fin 0 → Fin S20x2.rank)
  reducesTo_S20x2_S_d0_1 : S20x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S20 .f32) (main_arg6 : FVec F S20x2 .f32) (main_arg7 : FVec F S2 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x2 .f32 := Host.absf main_arg6
  let main_cst_8 : FVec F S_ .f32 := constant S_ .f32 0x7F800000#32
  let main_v25 : FVec F S20x2 .f32 := broadcastInDim S20x2 ![] bcast_S_S20x2 main_cst_8
  let main_v26 : IVec S20x2 1 := cmpf .olt main_v24 main_v25
  let main_c_9 : IVec S_ 1 := constantI S_ 1 1#1
  let main_v27 : IVec S_ 1 := (fun x v => Host.reduce IntOp.andi x v reducesTo_S20x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S64x512x50 .f32) (main_arg1 : IVec S2x2000000 32) (main_arg2 : FVec F S2x20 .f32) (main_arg3 : FVec F S20 .f32) (main_arg4 : FVec F S20 .f32) (main_arg5 : FVec F S20 .f32) (main_arg6 : FVec F S20x2 .f32) (main_arg7 : FVec F S2 .f32) : IVec S_ 1 :=
  let main_v0 : FVec F S64x512x50 .f32 := Host.absf main_arg0
  let main_cst : FVec F S_ .f32 := constant S_ .f32 0x7F800000#32
  let main_v1 : FVec F S64x512x50 .f32 := broadcastInDim S64x512x50 ![] bcast_S_S64x512x50 main_cst
  let main_v2 : IVec S64x512x50 1 := cmpf .olt main_v0 main_v1
  let main_c : IVec S_ 1 := constantI S_ 1 1#1
  let main_v3 : IVec S_ 1 := (fun x v => Host.reduce IntOp.andi x v reducesTo_S64x512x50_S_d0_1_2 h_S_) main_v2 main_c
  let main_v4 : FVec F S2x20 .f32 := Host.absf main_arg2
  let main_cst_0 : FVec F S_ .f32 := constant S_ .f32 0x7F800000#32
  let main_v5 : FVec F S2x20 .f32 := broadcastInDim S2x20 ![] bcast_S_S2x20 main_cst_0
  let main_v6 : IVec S2x20 1 := cmpf .olt main_v4 main_v5
  let main_c_1 : IVec S_ 1 := constantI S_ 1 1#1
  let main_v7 : IVec S_ 1 := (fun x v => Host.reduce IntOp.andi x v reducesTo_S2x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg5 main_arg6 main_arg7 main_v13 main_v16
-- ==== Kernel.lean ====
abbrev S64x512x50 : Shape := ⟨3, ![64, 512, 50]⟩
abbrev S2x2000000 : Shape := ⟨2, ![2, 2000000]⟩
abbrev S2x20 : Shape := ⟨2, ![2, 20]⟩
abbrev S20 : Shape := ⟨1, ![20]⟩
abbrev S20x2 : Shape := ⟨2, ![20, 2]⟩
abbrev S2 : Shape := ⟨1, ![2]⟩
abbrev S819200x2 : Shape := ⟨2, ![819200, 2]⟩
abbrev S819200 : Shape := ⟨1, ![819200]⟩
abbrev S1x2000000 : Shape := ⟨2, ![1, 2000000]⟩
abbrev S2000000 : Shape := ⟨1, ![2000000]⟩
abbrev S2819200 : Shape := ⟨1, ![2819200]⟩
abbrev S_ : Shape := ⟨0, ![]⟩
abbrev S2819200x1 : Shape := ⟨2, ![2819200, 1]⟩
abbrev S819200x20 : Shape := ⟨2, ![819200, 20]⟩
abbrev S8192x2 : Shape := ⟨2, ![8192, 2]⟩
abbrev S8192x20 : Shape := ⟨2, ![8192, 20]⟩
abbrev S2819200x20 : Shape := ⟨2, ![2819200, 20]⟩
abbrev S1x20 : Shape := ⟨2, ![1, 20]⟩
abbrev S2819200x2 : Shape := ⟨2, ![2819200, 2]⟩
abbrev S1x2 : Shape := ⟨2, ![1, 2]⟩

abbrev nBuf : Space → Nat
  | .hbm => 109
  | .vmem => 18
  | .smem => 0
  | _ => 0

abbrev bufTy : (tb : Table) → Fin (tcTables nBuf tb) → BufTy
  | .hbm, ⟨0, _⟩ => ⟨S64x512x50, .f32⟩
  | .hbm, ⟨1, _⟩ => ⟨S2x2000000, .i32⟩
  | .hbm, ⟨2, _⟩ => ⟨S2x20, .f32⟩
  | .hbm, ⟨3, _⟩ => ⟨S20, .f32⟩
  | .hbm, ⟨4, _⟩ => ⟨S20, .f32⟩
  | .hbm, ⟨5, _⟩ => ⟨S20, .f32⟩
  | .hbm, ⟨6, _⟩ => ⟨S20x2, .f32⟩
  | .hbm, ⟨7, _⟩ => ⟨S2, .f32⟩
  | .hbm, ⟨8, _⟩ => ⟨S819200x2, .f32⟩
  | .hbm, ⟨9, _⟩ => ⟨S819200, .i32⟩
  | .hbm, ⟨10, _⟩ => ⟨S1x2000000, .i32⟩
  | .hbm, ⟨11, _⟩ => ⟨S2000000, .i32⟩
  | .hbm, ⟨12, _⟩ => ⟨S2819200, .i32⟩
  | .hbm, ⟨13, _⟩ => ⟨S1x2000000, .i32⟩
  | .hbm, ⟨14, _⟩ => ⟨S2000000, .i32⟩
  | .hbm, ⟨15, _⟩ => ⟨S2819200, .i32⟩
  | .hbm, ⟨16, _⟩ => ⟨S_, .f32⟩
  | .hbm, ⟨17, _⟩ => ⟨S2819200, .f32⟩
  | .hbm, ⟨18, _⟩ => ⟨S_, .f32⟩
  | .hbm, ⟨19, _⟩ => ⟨S819200, .f32⟩
  | .hbm, ⟨20, _⟩ => ⟨S2819200x1, .i32⟩
  | .hbm, ⟨21, _⟩ => ⟨S819200, .f32⟩
  | .hbm, ⟨22, _⟩ => ⟨S_, .f32⟩
  | .hbm, ⟨23, _⟩ => ⟨S819200, .f32⟩
  | .hbm, ⟨24, _⟩ => ⟨S819200, .i1⟩
  | .hbm, ⟨25, _⟩ => ⟨S819200, .f32⟩
  | .hbm, ⟨26, _⟩ => ⟨S_, .f32⟩
  | .hbm, ⟨27, _⟩ => ⟨S_, .f32⟩
  | .hbm, ⟨28, _⟩ => ⟨S819200, .f32⟩
  | .hbm, ⟨29, _⟩ => ⟨S819200, .f32⟩
  | .hbm, ⟨30, _⟩ => ⟨S_, .i32⟩
  | .hbm, ⟨31, _⟩ => ⟨S2819200, .i32⟩
  | .hbm, ⟨32, _⟩ => ⟨S2819200, .i1⟩
  | .hbm, ⟨33, _⟩ => ⟨S_, .i32⟩
  | .hbm, ⟨34, _⟩ => ⟨S2819200, .i32⟩
  | .hbm, ⟨35, _⟩ => ⟨S2819200, .i32⟩
  | .hbm, ⟨36, _⟩ => ⟨S2819200, .i32⟩
  | .hbm, ⟨37, _⟩ => ⟨S2819200x1, .i32⟩
  | .hbm, ⟨38, _⟩ => ⟨S2819200, .f32⟩
  | .hbm, ⟨39, _⟩ => ⟨S_, .i32⟩
  | .hbm, ⟨40, _⟩ => ⟨S2819200, .i32⟩
  | .hbm, ⟨41, _⟩ => ⟨S2819200, .i1⟩
  | .hbm, ⟨42, _⟩ => ⟨S_, .i32⟩
  | .hbm, ⟨43, _⟩ => ⟨S2819200, .i32⟩
  | .hbm, ⟨44, _⟩ => ⟨S2819200, .i32⟩
  | .hbm, ⟨45, _⟩ => ⟨S2819200, .i32⟩
  | .hbm, ⟨46, _⟩ => ⟨S2819200x1, .i32⟩
  | .hbm, ⟨47, _⟩ => ⟨S2819200, .f32⟩
  | .hbm, ⟨48, _⟩ => ⟨S2819200, .f32⟩
  | .hbm, ⟨49, _⟩ => ⟨S819200x20, .f32⟩
  | .hbm, ⟨50, _⟩ => ⟨S_, .i32⟩
  | .hbm, ⟨51, _⟩ => ⟨S2819200, .i32⟩
  | .hbm, ⟨52, _⟩ => ⟨S2819200, .i1⟩
  | .hbm, ⟨53, _⟩ => ⟨S_, .i32⟩
  | .hbm, ⟨54, _⟩ => ⟨S2819200, .i32⟩
  | .hbm, ⟨55, _⟩ => ⟨S2819200, .i32⟩
  | .hbm, ⟨56, _⟩ => ⟨S2819200, .i32⟩
  | .hbm, ⟨57, _⟩ => ⟨S2819200x1, .i32⟩
  | .hbm, ⟨58, _⟩ => ⟨S2819200x20, .f32⟩
  | .hbm, ⟨59, _⟩ => ⟨S2819200x1, .f32⟩
  | .hbm, ⟨60, _⟩ => ⟨S2819200x20, .f32⟩
  | .hbm, ⟨61, _⟩ => ⟨S2819200x20, .f32⟩
  | .hbm, ⟨62, _⟩ => ⟨S_, .f32⟩
  | .hbm, ⟨63, _⟩ => ⟨S819200x20, .f32⟩
  | .hbm, ⟨64, _⟩ => ⟨S2819200x1, .i32⟩
  | .hbm, ⟨65, _⟩ => ⟨S819200x20, .f32⟩
  | .hbm, ⟨66, _⟩ => ⟨S1x20, .f32⟩
  | .hbm, ⟨67, _⟩ => ⟨S819200x20, .f32⟩
  | .hbm, ⟨68, _⟩ => ⟨S819200x20, .f32⟩
  | .hbm, ⟨69, _⟩ => ⟨S_, .f32⟩
  | .hbm, ⟨70, _⟩ => ⟨S20, .f32⟩
  | .hbm, ⟨71, _⟩ => ⟨S_, .f32⟩
  | .hbm, ⟨72, _⟩ => ⟨S20, .f32⟩
  | .hbm, ⟨73, _⟩ => ⟨S20, .f32⟩
  | .hbm, ⟨74, _⟩ => ⟨S1x20, .f32⟩
  | .hbm, ⟨75, _⟩ => ⟨S819200x20, .f32⟩
  | .hbm, ⟨76, _⟩ => ⟨S819200x20, .f32⟩
  | .hbm, ⟨77, _⟩ => ⟨S819200x20, .f32⟩
  | .hbm, ⟨78, _⟩ => ⟨S_, .f32⟩
  | .hbm, ⟨79, _⟩ => ⟨S20, .f32⟩
  | .hbm, ⟨80, _⟩ => ⟨S_, .f32⟩
  | .hbm, ⟨81, _⟩ => ⟨S20, .f32⟩
  | .hbm, ⟨82, _⟩ => ⟨S20, .f32⟩
  | .hbm, ⟨83, _⟩ => ⟨S1x20, .f32⟩
  | .hbm, ⟨84, _⟩ => ⟨S1x20, .f32⟩
  | .hbm, ⟨85, _⟩ => ⟨S1x20, .f32⟩
  | .hbm, ⟨86, _⟩ => ⟨S1x20, .f32⟩
  | .hbm, ⟨87, _⟩ => ⟨S819200x20, .bf16⟩
  | .hbm, ⟨88, _⟩ => ⟨S819200x2, .f32⟩
  | .hbm, ⟨89, _⟩ => ⟨S_, .i32⟩
  | .hbm, ⟨90, _⟩ => ⟨S2819200, .i32⟩
  | .hbm, ⟨91, _⟩ => ⟨S2819200, .i1⟩
  | .hbm, ⟨92, _⟩ => ⟨S_, .i32⟩
  | .hbm, ⟨93, _⟩ => ⟨S2819200, .i32⟩
  | .hbm, ⟨94, _⟩ => ⟨S2819200, .i32⟩
  | .hbm, ⟨95, _⟩ => ⟨S2819200, .i32⟩
  | .hbm, ⟨96, _⟩ => ⟨S2819200x1, .i32⟩
  | .hbm, ⟨97, _⟩ => ⟨S2819200x2, .f32⟩
  | .hbm, ⟨98, _⟩ => ⟨S2819200x1, .f32⟩
  | .hbm, ⟨99, _⟩ => ⟨S2819200x2, .f32⟩
  | .hbm, ⟨100, _⟩ => ⟨S2819200x2, .f32⟩
  | .hbm, ⟨101, _⟩ => ⟨S_, .f32⟩
  | .hbm, ⟨102, _⟩ => ⟨S819200x2, .f32⟩
  | .hbm, ⟨103, _⟩ => ⟨S2819200x1, .i32⟩
  | .hbm, ⟨104, _⟩ => ⟨S819200x2, .f32⟩
  | .hbm, ⟨105, _⟩ => ⟨S1x2, .f32⟩
  | .hbm, ⟨106, _⟩ => ⟨S819200x2, .f32⟩
  | .hbm, ⟨107, _⟩ => ⟨S819200x2, .f32⟩
  | .hbm, ⟨108, _⟩ => ⟨S64x512x50, .f32⟩
  | .local _ .vmem, ⟨0, _⟩ => ⟨S8192x2, .f32⟩
  | .local _ .vmem, ⟨1, _⟩ => ⟨S8192x2, .f32⟩
  | .local _ .vmem, ⟨2, _⟩ => ⟨S2x20, .f32⟩
  | .local _ .vmem, ⟨3, _⟩ => ⟨S8192x20, .f32⟩
  | .local _ .vmem, ⟨4, _⟩ => ⟨S8192x20, .f32⟩
  | .local _ .vmem, ⟨5, _⟩ => ⟨S8192x20, .f32⟩
  | .local _ .vmem, ⟨6, _⟩ => ⟨S8192x20, .f32⟩
  | .local _ .vmem, ⟨7, _⟩ => ⟨S1x20, .f32⟩
  | .local _ .vmem, ⟨8, _⟩ => ⟨S1x20, .f32⟩
  | .local _ .vmem, ⟨9, _⟩ => ⟨S1x20, .f32⟩
  | .local _ .vmem, ⟨10, _⟩ => ⟨S1x20, .f32⟩
  | .local _ .vmem, ⟨11, _⟩ => ⟨S8192x20, .bf16⟩
  | .local _ .vmem, ⟨12, _⟩ => ⟨S8192x20, .bf16⟩
  | .local _ .vmem, ⟨13, _⟩ => ⟨S8192x20, .bf16⟩
  | .local _ .vmem, ⟨14, _⟩ => ⟨S8192x20, .bf16⟩
  | .local _ .vmem, ⟨15, _⟩ => ⟨S20x2, .f32⟩
  | .local _ .vmem, ⟨16, _⟩ => ⟨S8192x2, .f32⟩
  | .local _ .vmem, ⟨17, _⟩ => ⟨S8192x2, .f32⟩
  | _, _ => ⟨S64x512x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x20 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x20 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64x512x50_S819200x2 : S64x512x50.ShapeCasts S819200x2
  slices_S2x2000000_S1x2000000_0_0 : S2x2000000.Slices ![0, 0] S1x2000000
  shapeCasts_S1x2000000_S2000000 : S1x2000000.ShapeCasts S2000000
  concatenates_S2000000_S819200_S2819200_d0 : Shape.Concatenates [S2000000, S819200] S2819200 0
  slices_S2x2000000_S1x2000000_1_0 : S2x2000000.Slices ![1, 0] S1x2000000
  bcast_S_S2819200 : S_.BroadcastsInDim S2819200 (![] : Fin 0 → Fin S2819200.rank)
  bcast_S_S819200 : S_.BroadcastsInDim S819200 (![] : Fin 0 → Fin S819200.rank)
  bcast_S2819200_S2819200x1_0 : S2819200.BroadcastsInDim S2819200x1 (![0] : Fin 1 → Fin S2819200x1.rank)
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  bitsLt_bf16_f32 : FTy.bits .bf16 < FTy.bits .f32
  inb_S2x20_S2x20_0_0 : ∀ a, (![0, 0] : Fin 2 → Nat) a + S2x20.size a ≤ S2x20.size a
  h_S2x20 : 0 < S2x20.numel
  inb_S8192x20_S8192x20_0_0 : ∀ a, (![0, 0] : Fin 2 → Nat) a + S8192x20.size a ≤ S8192x20.size a
  h_S8192x20 : 0 < S8192x20.numel
  bcast_S2819200x1_S2819200x20_0_1 : S2819200x1.BroadcastsInDim S2819200x20 (![0, 1] : Fin 2 → Fin S2819200x20.rank)
  bcast_S_S819200x20 : S_.BroadcastsInDim S819200x20 (![] : Fin 0 → Fin S819200x20.rank)
  bcast_S20_S1x20_1 : S20.BroadcastsInDim S1x20 (![1] : Fin 1 → Fin S1x20.rank)
  bcast_S1x20_S819200x20_0_1 : S1x20.BroadcastsInDim S819200x20 (![0, 1] : Fin 2 → Fin S819200x20.rank)
  reducesTo_S819200x20_S20_d0 : S819200x20.ReducesTo [0] S20
  h_S_ : 0 < S_.numel
  bcast_S_S20 : S_.BroadcastsInDim S20 (![] : Fin 0 → Fin S20.rank)
  shapeCasts_S20_S1x20 : S20.ShapeCasts S1x20
  shapeCasts_S8192x20_S8192x20 : S8192x20.ShapeCasts S8192x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S8192x20 : S1x20.Broadcasts S8192x20
  packedbf16_S8192x20_S8192x20_0_0 : (Rect.unit (s := S8192x20) ![0, 0] S8192x20.size inb_S8192x20_S8192x20_0_0).PackedRows (EltTy.packing .bf16)
  inb_S20x2_S20x2_0_0 : ∀ a, (![0, 0] : Fin 2 → Nat) a + S20x2.size a ≤ S20x2.size a
  h_S20x2 : 0 < S20x2.numel
  bcast_S2819200x1_S2819200x2_0_1 : S2819200x1.BroadcastsInDim S2819200x2 (![0, 1] : Fin 2 → Fin S2819200x2.rank)
  bcast_S_S819200x2 : S_.BroadcastsInDim S819200x2 (![] : Fin 0 → Fin S819200x2.rank)
  bcast_S2_S1x2_1 : S2.BroadcastsInDim S1x2 (![1] : Fin 1 → Fin S1x2.rank)
  bcast_S1x2_S819200x2_0_1 : S1x2.BroadcastsInDim S819200x2 (![0, 1] : Fin 2 → Fin S819200x2.rank)
  shapeCasts_S819200x2_S64x512x50 : S819200x2.ShapeCasts S64x512x50
  scatter_S819200_S2819200x1_S2819200_n_0_0_1_wf : ScatterDims.WF S819200 S2819200x1 S2819200 [] [0] [0] 1
  gather_S819200_S2819200x1_S2819200_n_0_n_n_0_1_1_wf : GatherDims.WF S819200 S2819200x1 S2819200 [] [0] [] [0] [] 1 ![1]
  dot_S8192x2_S2x20_S8192x20_1_0_0_1_n_n_wf : DotDims.WF S8192x2 S2x20 S8192x20 [1] [0] [0] [1] [] []
  gather_S819200x20_S2819200x1_S2819200x20_1_0_n_n_0_1_120_wf : GatherDims.WF S819200x20 S2819200x1 S2819200x20 [1] [0] [] [0] [] 1 ![1, 20]
  scatter_S819200x20_S2819200x1_S2819200x20_1_0_0_1_wf : ScatterDims.WF S819200x20 S2819200x1 S2819200x20 [1] [0] [0] 1
  dot_S8192x20_S20x2_S8192x2_1_0_0_1_n_n_wf : DotDims.WF S8192x20 S20x2 S8192x2 [1] [0] [0] [1] [] []
  gather_S819200x2_S2819200x1_S2819200x2_1_0_n_n_0_1_12_wf : GatherDims.WF S819200x2 S2819200x1 S2819200x2 [1] [0] [] [0] [] 1 ![1, 2]
  scatter_S819200x2_S2819200x1_S2819200x2_1_0_0_1_wf : ScatterDims.WF S819200x2 S2819200x1 S2819200x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S819200x2.size a
  hwx0_0 : ∀ i : grid0.Coords, EltTy.bits .f32 = 32 ∨ (Rect.block (s := S819200x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x20.size a ≤ S2x20.size a
  hwx0_1 : ∀ i : grid0.Coords, EltTy.bits .f32 = 32 ∨ (Rect.block (s := S2x20) S2x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x20.size a ≤ S819200x20.size a
  hwx0_2 : ∀ i : grid0.Coords, EltTy.bits .f32 = 32 ∨ (Rect.block (s := S819200x20) S8192x20.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x20.size a ≤ S819200x20.size a
  hwx1_0 : ∀ i : grid1.Coords, EltTy.bits .f32 = 32 ∨ (Rect.block (s := S819200x20) S8192x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x20.size a ≤ S1x20.size a
  hwx1_1 : ∀ i : grid1.Coords, EltTy.bits .f32 = 32 ∨ (Rect.block (s := S1x20) S1x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20.size a ≤ S1x20.size a
  hwx1_3 : ∀ i : grid1.Coords, EltTy.bits .f32 = 32 ∨ (Rect.block (s := S1x20) S1x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20.size a ≤ S1x20.size a
  hwx1_4 : ∀ i : grid1.Coords, EltTy.bits .f32 = 32 ∨ (Rect.block (s := S1x20) S1x20.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x20.size a ≤ S819200x20.size a
  hwx1_5 : ∀ i : grid1.Coords, EltTy.bits .bf16 = 32 ∨ (Rect.block (s := S819200x20) S8192x20.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x20.size a ≤ S819200x20.size a
  hwx2_0 : ∀ i : grid2.Coords, EltTy.bits .bf16 = 32 ∨ (Rect.block (s := S819200x20) S8192x20.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20x2.size a ≤ S20x2.size a
  hwx2_1 : ∀ i : grid2.Coords, EltTy.bits .f32 = 32 ∨ (Rect.block (s := S20x2) S20x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x2.size a ≤ S819200x2.size a
  hwx2_2 : ∀ i : grid2.Coords, EltTy.bits .f32 = 32 ∨ (Rect.block (s := S819200x2) S8192x2.size (cc2_transform_2 i) (hinb2_2 i)).WholeWords (EltTy.packing .f32)

variable [Facts₀]

def scatter_S819200_S2819200x1_S2819200_n_0_0_1 : ScatterDims S819200 S2819200x1 S2819200 where
  updateWindowDims := []
  insertedWindowDims := [0]
  scatterDimsToOperandDims := [0]
  indexVectorDim := 1
  wf := scatter_S819200_S2819200x1_S2819200_n_0_0_1_wf
def gather_S819200_S2819200x1_S2819200_n_0_n_n_0_1_1 : GatherDims S819200 S2819200x1 S2819200 where
  offsetDims := []
  collapsedSliceDims := [0]
  operandBatchingDims := []
  startIndicesBatchingDims := []
  startIndexMap := [0]
  indexVectorDim := 1
  sliceSizes := ![1]
  wf := gather_S819200_S2819200x1_S2819200_n_0_n_n_0_1_1_wf
def dot_S8192x2_S2x20_S8192x20_1_0_0_1_n_n : DotDims S8192x2 S2x20 S8192x20 where
  lhsContracting := [1]
  rhsContracting := [0]
  lhsNonContracting := [0]
  rhsNonContracting := [1]
  lhsBatch := []
  rhsBatch := []
  wf := dot_S8192x2_S2x20_S8192x20_1_0_0_1_n_n_wf
def gather_S819200x20_S2819200x1_S2819200x20_1_0_n_n_0_1_120 : GatherDims S819200x20 S2819200x1 S2819200x20 where
  offsetDims := [1]
  collapsedSliceDims := [0]
  operandBatchingDims := []
  startIndicesBatchingDims := []
  startIndexMap := [0]
  indexVectorDim := 1
  sliceSizes := ![1, 20]
  wf := gather_S819200x20_S2819200x1_S2819200x20_1_0_n_n_0_1_120_wf
def scatter_S819200x20_S2819200x1_S2819200x20_1_0_0_1 : ScatterDims S819200x20 S2819200x1 S2819200x20 where
  updateWindowDims := [1]
  insertedWindowDims := [0]
  scatterDimsToOperandDims := [0]
  indexVectorDim := 1
  wf := scatter_S819200x20_S2819200x1_S2819200x20_1_0_0_1_wf
def dot_S8192x20_S20x2_S8192x2_1_0_0_1_n_n : DotDims S8192x20 S20x2 S8192x2 where
  lhsContracting := [1]
  rhsContracting := [0]
  lhsNonContracting := [0]
  rhsNonContracting := [1]
  lhsBatch := []
  rhsBatch := []
  wf := dot_S8192x20_S20x2_S8192x2_1_0_0_1_n_n_wf
def gather_S819200x2_S2819200x1_S2819200x2_1_0_n_n_0_1_12 : GatherDims S819200x2 S2819200x1 S2819200x2 where
  offsetDims := [1]
  collapsedSliceDims := [0]
  operandBatchingDims := []
  startIndicesBatchingDims := []
  startIndexMap := [0]
  indexVectorDim := 1
  sliceSizes := ![1, 2]
  wf := gather_S819200x2_S2819200x1_S2819200x2_1_0_n_n_0_1_12_wf
def scatter_S819200x2_S2819200x1_S2819200x2_1_0_0_1 : ScatterDims S819200x2 S2819200x1 S2819200x2 where
  updateWindowDims := [1]
  insertedWindowDims := [0]
  scatterDimsToOperandDims := [0]
  indexVectorDim := 1
  wf := scatter_S819200x2_S2819200x1_S2819200x2_1_0_0_1_wf

abbrev win0_0 : Pipeline.Window sig grid0 :=
  Pipeline.Window.ofSpec (Memref.whole main_v0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S8192x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S8192x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S8192x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S20x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S8192x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x512x50 : Shape := ⟨3, ![64, 512, 50]⟩
abbrev S2x2000000 : Shape := ⟨2, ![2, 2000000]⟩
abbrev S2x20 : Shape := ⟨2, ![2, 20]⟩
abbrev S20 : Shape := ⟨1, ![20]⟩
abbrev S20x2 : Shape := ⟨2, ![20, 2]⟩
abbrev S2 : Shape := ⟨1, ![2]⟩
abbrev S819200x2 : Shape := ⟨2, ![819200, 2]⟩
abbrev S819200 : Shape := ⟨1, ![819200]⟩
abbrev S1x2000000 : Shape := ⟨2, ![1, 2000000]⟩
abbrev S2000000 : Shape := ⟨1, ![2000000]⟩
abbrev S2819200 : Shape := ⟨1, ![2819200]⟩
abbrev S_ : Shape := ⟨0, ![]⟩
abbrev S2819200x1 : Shape := ⟨2, ![2819200, 1]⟩
abbrev S819200x20 : Shape := ⟨2, ![819200, 20]⟩
abbrev S2819200x20 : Shape := ⟨2, ![2819200, 20]⟩
abbrev S1x20 : Shape := ⟨2, ![1, 20]⟩
abbrev S2819200x2 : Shape := ⟨2, ![2819200, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S64x512x50, .f32⟩
  | .hbm, ⟨1, _⟩ => ⟨S2x2000000, .i32⟩
  | .hbm, ⟨2, _⟩ => ⟨S2x20, .f32⟩
  | .hbm, ⟨3, _⟩ => ⟨S20, .f32⟩
  | .hbm, ⟨4, _⟩ => ⟨S20, .f32⟩
  | .hbm, ⟨5, _⟩ => ⟨S20, .f32⟩
  | .hbm, ⟨6, _⟩ => ⟨S20x2, .f32⟩
  | .hbm, ⟨7, _⟩ => ⟨S2, .f32⟩
  | .hbm, ⟨8, _⟩ => ⟨S819200x2, .f32⟩
  | .hbm, ⟨9, _⟩ => ⟨S819200, .i32⟩
  | .hbm, ⟨10, _⟩ => ⟨S1x2000000, .i32⟩
  | .hbm, ⟨11, _⟩ => ⟨S2000000, .i32⟩
  | .hbm, ⟨12, _⟩ => ⟨S2819200, .i32⟩
  | .hbm, ⟨13, _⟩ => ⟨S1x2000000, .i32⟩
  | .hbm, ⟨14, _⟩ => ⟨S2000000, .i32⟩
  | .hbm, ⟨15, _⟩ => ⟨S2819200, .i32⟩
  | .hbm, ⟨16, _⟩ => ⟨S_, .f32⟩
  | .hbm, ⟨17, _⟩ => ⟨S2819200, .f32⟩
  | .hbm, ⟨18, _⟩ => ⟨S_, .f32⟩
  | .hbm, ⟨19, _⟩ => ⟨S819200, .f32⟩
  | .hbm, ⟨20, _⟩ => ⟨S2819200x1, .i32⟩
  | .hbm, ⟨21, _⟩ => ⟨S819200, .f32⟩
  | .hbm, ⟨22, _⟩ => ⟨S_, .f32⟩
  | .hbm, ⟨23, _⟩ => ⟨S819200, .f32⟩
  | .hbm, ⟨24, _⟩ => ⟨S819200, .i1⟩
  | .hbm, ⟨25, _⟩ => ⟨S819200, .f32⟩
  | .hbm, ⟨26, _⟩ => ⟨S_, .f32⟩
  | .hbm, ⟨27, _⟩ => ⟨S_, .f32⟩
  | .hbm, ⟨28, _⟩ => ⟨S819200, .f32⟩
  | .hbm, ⟨29, _⟩ => ⟨S819200, .f32⟩
  | .hbm, ⟨30, _⟩ => ⟨S_, .i32⟩
  | .hbm, ⟨31, _⟩ => ⟨S2819200, .i32⟩
  | .hbm, ⟨32, _⟩ => ⟨S2819200, .i1⟩
  | .hbm, ⟨33, _⟩ => ⟨S_, .i32⟩
  | .hbm, ⟨34, _⟩ => ⟨S2819200, .i32⟩
  | .hbm, ⟨35, _⟩ => ⟨S2819200, .i32⟩
  | .hbm, ⟨36, _⟩ => ⟨S2819200, .i32⟩
  | .hbm, ⟨37, _⟩ => ⟨S2819200x1, .i32⟩
  | .hbm, ⟨38, _⟩ => ⟨S2819200, .f32⟩
  | .hbm, ⟨39, _⟩ => ⟨S_, .i32⟩
  | .hbm, ⟨40, _⟩ => ⟨S2819200, .i32⟩
  | .hbm, ⟨41, _⟩ => ⟨S2819200, .i1⟩
  | .hbm, ⟨42, _⟩ => ⟨S_, .i32⟩
  | .hbm, ⟨43, _⟩ => ⟨S2819200, .i32⟩
  | .hbm, ⟨44, _⟩ => ⟨S2819200, .i32⟩
  | .hbm, ⟨45, _⟩ => ⟨S2819200, .i32⟩
  | .hbm, ⟨46, _⟩ => ⟨S2819200x1, .i32⟩
  | .hbm, ⟨47, _⟩ => ⟨S2819200, .f32⟩
  | .hbm, ⟨48, _⟩ => ⟨S2819200, .f32⟩
  | .hbm, ⟨49, _⟩ => ⟨S819200x20, .f32⟩
  | .hbm, ⟨50, _⟩ => ⟨S_, .i32⟩
  | .hbm, ⟨51, _⟩ => ⟨S2819200, .i32⟩
  | .hbm, ⟨52, _⟩ => ⟨S2819200, .i1⟩
  | .hbm, ⟨53, _⟩ => ⟨S_, .i32⟩
  | .hbm, ⟨54, _⟩ => ⟨S2819200, .i32⟩
  | .hbm, ⟨55, _⟩ => ⟨S2819200, .i32⟩
  | .hbm, ⟨56, _⟩ => ⟨S2819200, .i32⟩
  | .hbm, ⟨57, _⟩ => ⟨S2819200x1, .i32⟩
  | .hbm, ⟨58, _⟩ => ⟨S2819200x20, .f32⟩
  | .hbm, ⟨59, _⟩ => ⟨S2819200x1, .f32⟩
  | .hbm, ⟨60, _⟩ => ⟨S2819200x20, .f32⟩
  | .hbm, ⟨61, _⟩ => ⟨S2819200x20, .f32⟩
  | .hbm, ⟨62, _⟩ => ⟨S_, .f32⟩
  | .hbm, ⟨63, _⟩ => ⟨S819200x20, .f32⟩
  | .hbm, ⟨64, _⟩ => ⟨S2819200x1, .i32⟩
  | .hbm, ⟨65, _⟩ => ⟨S819200x20, .f32⟩
  | .hbm, ⟨66, _⟩ => ⟨S1x20, .f32⟩
  | .hbm, ⟨67, _⟩ => ⟨S819200x20, .f32⟩
  | .hbm, ⟨68, _⟩ => ⟨S819200x20, .f32⟩
  | .hbm, ⟨69, _⟩ => ⟨S_, .f32⟩
  | .hbm, ⟨70, _⟩ => ⟨S20, .f32⟩
  | .hbm, ⟨71, _⟩ => ⟨S_, .f32⟩
  | .hbm, ⟨72, _⟩ => ⟨S20, .f32⟩
  | .hbm, ⟨73, _⟩ => ⟨S20, .f32⟩
  | .hbm, ⟨74, _⟩ => ⟨S1x20, .f32⟩
  | .hbm, ⟨75, _⟩ => ⟨S819200x20, .f32⟩
  | .hbm, ⟨76, _⟩ => ⟨S819200x20, .f32⟩
  | .hbm, ⟨77, _⟩ => ⟨S819200x20, .f32⟩
  | .hbm, ⟨78, _⟩ => ⟨S_, .f32⟩
  | .hbm, ⟨79, _⟩ => ⟨S20, .f32⟩
  | .hbm, ⟨80, _⟩ => ⟨S_, .f32⟩
  | .hbm, ⟨81, _⟩ => ⟨S20, .f32⟩
  | .hbm, ⟨82, _⟩ => ⟨S20, .f32⟩
  | .hbm, ⟨83, _⟩ => ⟨S1x20, .f32⟩
  | .hbm, ⟨84, _⟩ => ⟨S819200x20, .f32⟩
  | .hbm, ⟨85, _⟩ => ⟨S819200x20, .f32⟩
  | .hbm, ⟨86, _⟩ => ⟨S_, .f32⟩
  | .hbm, ⟨87, _⟩ => ⟨S20, .f32⟩
  | .hbm, ⟨88, _⟩ => ⟨S20, .f32⟩
  | .hbm, ⟨89, _⟩ => ⟨S20, .f32⟩
  | .hbm, ⟨90, _⟩ => ⟨S1x20, .f32⟩
  | .hbm, ⟨91, _⟩ => ⟨S819200x20, .f32⟩
  | .hbm, ⟨92, _⟩ => ⟨S819200x20, .f32⟩
  | .hbm, ⟨93, _⟩ => ⟨S1x20, .f32⟩
  | .hbm, ⟨94, _⟩ => ⟨S819200x20, .f32⟩
  | .hbm, ⟨95, _⟩ => ⟨S819200x20, .f32⟩
  | .hbm, ⟨96, _⟩ => ⟨S1x20, .f32⟩
  | .hbm, ⟨97, _⟩ => ⟨S819200x20, .f32⟩
  | .hbm, ⟨98, _⟩ => ⟨S819200x20, .f32⟩
  | .hbm, ⟨99, _⟩ => ⟨S_, .f32⟩
  | .hbm, ⟨100, _⟩ => ⟨S819200x20, .f32⟩
  | .hbm, ⟨101, _⟩ => ⟨S819200x20, .f32⟩
  | .hbm, ⟨102, _⟩ => ⟨S819200x2, .f32⟩
  | .hbm, ⟨103, _⟩ => ⟨S_, .i32⟩
  | .hbm, ⟨104, _⟩ => ⟨S2819200, .i32⟩
  | .hbm, ⟨105, _⟩ => ⟨S2819200, .i1⟩
  | .hbm, ⟨106, _⟩ => ⟨S_, .i32⟩
  | .hbm, ⟨107, _⟩ => ⟨S2819200, .i32⟩
  | .hbm, ⟨108, _⟩ => ⟨S2819200, .i32⟩
  | .hbm, ⟨109, _⟩ => ⟨S2819200, .i32⟩
  | .hbm, ⟨110, _⟩ => ⟨S2819200x1, .i32⟩
  | .hbm, ⟨111, _⟩ => ⟨S2819200x2, .f32⟩
  | .hbm, ⟨112, _⟩ => ⟨S2819200x1, .f32⟩
  | .hbm, ⟨113, _⟩ => ⟨S2819200x2, .f32⟩
  | .hbm, ⟨114, _⟩ => ⟨S2819200x2, .f32⟩
  | .hbm, ⟨115, _⟩ => ⟨S_, .f32⟩
  | .hbm, ⟨116, _⟩ => ⟨S819200x2, .f32⟩
  | .hbm, ⟨117, _⟩ => ⟨S2819200x1, .i32⟩
  | .hbm, ⟨118, _⟩ => ⟨S819200x2, .f32⟩
  | .hbm, ⟨119, _⟩ => ⟨S1x2, .f32⟩
  | .hbm, ⟨120, _⟩ => ⟨S819200x2, .f32⟩
  | .hbm, ⟨121, _⟩ => ⟨S819200x2, .f32⟩
  | .hbm, ⟨122, _⟩ => ⟨S64x512x50, .f32⟩
  | _, _ => ⟨S64x512x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  shapeCasts_S64x512x50_S819200x2 : S64x512x50.ShapeCasts S819200x2
  slices_S2x2000000_S1x2000000_0_0 : S2x2000000.Slices ![0, 0] S1x2000000
  shapeCasts_S1x2000000_S2000000 : S1x2000000.ShapeCasts S2000000
  concatenates_S2000000_S819200_S2819200_d0 : Shape.Concatenates [S2000000, S819200] S2819200 0
  slices_S2x2000000_S1x2000000_1_0 : S2x2000000.Slices ![1, 0] S1x2000000
  bcast_S_S2819200 : S_.BroadcastsInDim S2819200 (![] : Fin 0 → Fin S2819200.rank)
  bcast_S_S819200 : S_.BroadcastsInDim S819200 (![] : Fin 0 → Fin S819200.rank)
  bcast_S2819200_S2819200x1_0 : S2819200.BroadcastsInDim S2819200x1 (![0] : Fin 1 → Fin S2819200x1.rank)
  bcast_S2819200x1_S2819200x20_0_1 : S2819200x1.BroadcastsInDim S2819200x20 (![0, 1] : Fin 2 → Fin S2819200x20.rank)
  bcast_S_S819200x20 : S_.BroadcastsInDim S819200x20 (![] : Fin 0 → Fin S819200x20.rank)
  bcast_S20_S1x20_1 : S20.BroadcastsInDim S1x20 (![1] : Fin 1 → Fin S1x20.rank)
  bcast_S1x20_S819200x20_0_1 : S1x20.BroadcastsInDim S819200x20 (![0, 1] : Fin 2 → Fin S819200x20.rank)
  reducesTo_S819200x20_S20_d0 : S819200x20.ReducesTo [0] S20
  h_S_ : 0 < S_.numel
  bcast_S_S20 : S_.BroadcastsInDim S20 (![] : Fin 0 → Fin S20.rank)
  bcast_S2819200x1_S2819200x2_0_1 : S2819200x1.BroadcastsInDim S2819200x2 (![0, 1] : Fin 2 → Fin S2819200x2.rank)
  bcast_S_S819200x2 : S_.BroadcastsInDim S819200x2 (![] : Fin 0 → Fin S819200x2.rank)
  bcast_S2_S1x2_1 : S2.BroadcastsInDim S1x2 (![1] : Fin 1 → Fin S1x2.rank)
  bcast_S1x2_S819200x2_0_1 : S1x2.BroadcastsInDim S819200x2 (![0, 1] : Fin 2 → Fin S819200x2.rank)
  shapeCasts_S819200x2_S64x512x50 : S819200x2.ShapeCasts S64x512x50
  scatter_S819200_S2819200x1_S2819200_n_0_0_1_wf : ScatterDims.WF S819200 S2819200x1 S2819200 [] [0] [0] 1
  gather_S819200_S2819200x1_S2819200_n_0_n_n_0_1_1_wf : GatherDims.WF S819200 S2819200x1 S2819200 [] [0] [] [0] [] 1 ![1]
  dot_S819200x2_S2x20_S819200x20_1_0_0_1_n_n_wf : DotDims.WF S819200x2 S2x20 S819200x20 [1] [0] [0] [1] [] []
  gather_S819200x20_S2819200x1_S2819200x20_1_0_n_n_0_1_120_wf : GatherDims.WF S819200x20 S2819200x1 S2819200x20 [1] [0] [] [0] [] 1 ![1, 20]
  scatter_S819200x20_S2819200x1_S2819200x20_1_0_0_1_wf : ScatterDims.WF S819200x20 S2819200x1 S2819200x20 [1] [0] [0] 1
  dot_S819200x20_S20x2_S819200x2_1_0_0_1_n_n_wf : DotDims.WF S819200x20 S20x2 S819200x2 [1] [0] [0] [1] [] []
  gather_S819200x2_S2819200x1_S2819200x2_1_0_n_n_0_1_12_wf : GatherDims.WF S819200x2 S2819200x1 S2819200x2 [1] [0] [] [0] [] 1 ![1, 2]
  scatter_S819200x2_S2819200x1_S2819200x2_1_0_0_1_wf : ScatterDims.WF S819200x2 S2819200x1 S2819200x2 [1] [0] [0] 1

variable [Facts₀]

def scatter_S819200_S2819200x1_S2819200_n_0_0_1 : ScatterDims S819200 S2819200x1 S2819200 where
  updateWindowDims := []
  insertedWindowDims := [0]
  scatterDimsToOperandDims := [0]
  indexVectorDim := 1
  wf := scatter_S819200_S2819200x1_S2819200_n_0_0_1_wf
def gather_S819200_S2819200x1_S2819200_n_0_n_n_0_1_1 : GatherDims S819200 S2819200x1 S2819200 where
  offsetDims := []
  collapsedSliceDims := [0]
  operandBatchingDims := []
  startIndicesBatchingDims := []
  startIndexMap := [0]
  indexVectorDim := 1
  sliceSizes := ![1]
  wf := gather_S819200_S2819200x1_S2819200_n_0_n_n_0_1_1_wf
def dot_S819200x2_S2x20_S819200x20_1_0_0_1_n_n : DotDims S819200x2 S2x20 S819200x20 where
  lhsContracting := [1]
  rhsContracting := [0]
  lhsNonContracting := [0]
  rhsNonContracting := [1]
  lhsBatch := []
  rhsBatch := []
  wf := dot_S819200x2_S2x20_S819200x20_1_0_0_1_n_n_wf
def gather_S819200x20_S2819200x1_S2819200x20_1_0_n_n_0_1_120 : GatherDims S819200x20 S2819200x1 S2819200x20 where
  offsetDims := [1]
  collapsedSliceDims := [0]
  operandBatchingDims := []
  startIndicesBatchingDims := []
  startIndexMap := [0]
  indexVectorDim := 1
  sliceSizes := ![1, 20]
  wf := gather_S819200x20_S2819200x1_S2819200x20_1_0_n_n_0_1_120_wf
def scatter_S819200x20_S2819200x1_S2819200x20_1_0_0_1 : ScatterDims S819200x20 S2819200x1 S2819200x20 where
  updateWindowDims := [1]
  insertedWindowDims := [0]
  scatterDimsToOperandDims := [0]
  indexVectorDim := 1
  wf := scatter_S819200x20_S2819200x1_S2819200x20_1_0_0_1_wf
def dot_S819200x20_S20x2_S819200x2_1_0_0_1_n_n : DotDims S819200x20 S20x2 S819200x2 where
  lhsContracting := [1]
  rhsContracting := [0]
  lhsNonContracting := [0]
  rhsNonContracting := [1]
  lhsBatch := []
  rhsBatch := []
  wf := dot_S819200x20_S20x2_S819200x2_1_0_0_1_n_n_wf
def gather_S819200x2_S2819200x1_S2819200x2_1_0_n_n_0_1_12 : GatherDims S819200x2 S2819200x1 S2819200x2 where
  offsetDims := [1]
  collapsedSliceDims := [0]
  operandBatchingDims := []
  startIndicesBatchingDims := []
  startIndexMap := [0]
  indexVectorDim := 1
  sliceSizes := ![1, 2]
  wf := gather_S819200x2_S2819200x1_S2819200x2_1_0_n_n_0_1_12_wf
def scatter_S819200x2_S2819200x1_S2819200x2_1_0_0_1 : ScatterDims S819200x2 S2819200x1 S2819200x2 where
  updateWindowDims := [1]
  insertedWindowDims := [0]
  scatterDimsToOperandDims := [0]
  indexVectorDim := 1
  wf := scatter_S819200x2_S2819200x1_S2819200x2_1_0_0_1_wf

class Facts : Prop extends Facts₀ where

variable [Facts]
-- ==== Proof.KernelRun.lean ====
/-
  The idealized kernel's run with the final contents of every buffer named.

  The program is three pipelined regions among stretches of host operations. Its run ends with every unscoped
  buffer of a core holding the last boundary's contents, the fold `W8` of the launch memory through the stretches
  and the regions; this module states the run with that fact kept for whatever postcondition follows from it, and
  then for the result buffer and the eight argument arrays.
-/
import proofs.«100869_j65206193487903_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and any property that holds of a memory
    whose unscoped buffers are at the last boundary's contents holds of the final memory. -/
theorem run_at {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- The run with the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_at m ρ (fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibSageUpdate.lean ====
/-
  The dense update of a mean-aggregating graph layer, and a linear head, on the extended reals.

  A node's new features are max((x·Ws + h·Wn) + b, 0): the node's own row x times one weight matrix, plus its
  neighbourhood row h times another, plus a bias row, rectified. A head is y·Wc + bc. Both are read here entry by
  entry as sums over the contracted axis. The vector unit's spelling (products into a zero accumulator, the bias
  vector cast to one row and broadcast over the rows, a maximum with a splat zero) and the host's spelling
  (general dot products, the bias broadcast in two steps, a maximum with a broadcast zero scalar) are each this one
  function. An entry of the update depends on row r of x and of h only, so the update of a block of rows, with the
  whole weight matrices and bias, is the update of the whole arrays at those rows; likewise the head.
-/
import proofs.«100869_j65206193487903_1_alg».proof.Proof.LibDense

noncomputable section

open scoped BigOperators

namespace Cert.SageUpdate

open Idealize.ShloMosaic Idealize.ShloMosaic.ValueIdx Cert.Dense

variable {M K N C : ℕ}

/-- The update: entry (r, c) is max((Σ_k X(r,k)·Ws(k,c) + Σ_k H(r,k)·Wn(k,c)) + b(c), 0). -/
def upd (X H : Mat M K) (Ws Wn : Mat K N) (b : Row N) : Mat M N :=
  fun i => max ((mm X Ws i + mm H Wn i) + b (ix1 (i 1))) 0

/-- The head: entry (r, c) is Σ_k Y(r,k)·Wc(k,c) + bc(c). -/
def head (Y : Mat M N) (Wc : Mat N C) (bc : Row C) : Mat M C :=
  fun i => mm Y Wc i + bc (ix1 (i 1))

theorem upd_apply (X H : Mat M K) (Ws Wn : Mat K N) (b : Row N) (p : Fin M) (q : Fin N) :
    upd X H Ws Wn b (ix2 p q) = max ((mm X Ws (ix2 p q) + mm H Wn (ix2 p q)) + b (ix1 q)) 0 := rfl

theorem head_apply (Y : Mat M N) (Wc : Mat N C) (bc : Row C) (p : Fin M) (q : Fin C) :
    head Y Wc bc (ix2 p q) = mm Y Wc (ix2 p q) + bc (ix1 q) := rfl

/-! ## The bias row as each side stores it -/

/-- A bias vector cast to one row and broadcast over the rows reads, at (p, q), the vector at q. -/
theorem castRow_apply (b : FVec Ideal ⟨1, ![N]⟩ .f32) (hsc : (⟨1, ![N]⟩ : Shape).ShapeCasts ⟨2, ![1, N]⟩)
    (hbc : (⟨2, ![1, N]⟩ : Shape).Broadcasts ⟨2, ![M, N]⟩) (p : Fin M) (q : Fin N) :
    broadcastTo ⟨2, ![M, N]⟩ (shapeCast ⟨2, ![1, N]⟩ b hsc) hbc (ix2 p q) = b (ix1 q) := by
  rw [broadcastTo_1b_ab_apply, shapeCast_a_1a_apply]

/-- A bias vector broadcast first to one row and then over the rows reads, at (p, q), the vector at q. -/
theorem bcastRow_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-! ## The vector unit's spelling -/

/-- Two products into zero accumulators, added, plus the bias cast to a row and broadcast, rectified against a splat
    zero: the update. -/
theorem kernel_upd {φ₁ φ₂ φ₃ φ₄ : FTy} (x : FVec Ideal ⟨2, ![M, K]⟩ φ₁) (h : FVec Ideal ⟨2, ![M, K]⟩ φ₂)
    (ws : FVec Ideal ⟨2, ![K, N]⟩ φ₃) (wn : FVec Ideal ⟨2, ![K, N]⟩ φ₄) (b : FVec Ideal ⟨1, ![N]⟩ .f32)
    (hsc : (⟨1, ![N]⟩ : Shape).ShapeCasts ⟨2, ![1, N]⟩) (hbc : (⟨2, ![1, N]⟩ : Shape).Broadcasts ⟨2, ![M, N]⟩) :
    maximumf (addf (addf (matmul (DotDims.plain M K N) none x ws (constant (F := Ideal) ⟨2, ![M, N]⟩ .f32 0x00000000#32))
                         (matmul (DotDims.plain M K N) none h wn (constant (F := Ideal) ⟨2, ![M, N]⟩ .f32 0x00000000#32)))
                   (broadcastTo ⟨2, ![M, N]⟩ (shapeCast ⟨2, ![1, N]⟩ b hsc) hbc))
        (broadcast ⟨2, ![M, N]⟩ (Scalar.ofBits (F := Ideal) .f32 0x00000000#32))
      = upd x h ws wn b := by
  rw [maximumf_splat_zero, matmul_plain_zero, matmul_plain_zero]
  funext i
  obtain ⟨p, q, rfl⟩ : ∃ (p : Fin M) (q : Fin N), i = ix2 p q := ⟨i 0, i 1, eq_ix2 i⟩
  show max ((mm x ws (ix2 p q) + mm h wn (ix2 p q))
      + broadcastTo ⟨2, ![M, N]⟩ (shapeCast ⟨2, ![1, N]⟩ b hsc) hbc (ix2 p q)) 0 = _
  rw [castRow_apply]
  rfl

/-- A product into a zero accumulator plus the bias cast to a row and broadcast: the head. -/
theorem kernel_head {φ₁ φ₂ : FTy} (y : FVec Ideal ⟨2, ![M, N]⟩ φ₁) (wc : FVec Ideal ⟨2, ![N, C]⟩ φ₂)
    (bc : FVec Ideal ⟨1, ![C]⟩ .f32) (hsc : (⟨1, ![C]⟩ : Shape).ShapeCasts ⟨2, ![1, C]⟩)
    (hbc : (⟨2, ![1, C]⟩ : Shape).Broadcasts ⟨2, ![M, C]⟩) :
    addf (matmul (DotDims.plain M N C) none y wc (constant (F := Ideal) ⟨2, ![M, C]⟩ .f32 0x00000000#32))
        (broadcastTo ⟨2, ![M, C]⟩ (shapeCast ⟨2, ![1, C]⟩ bc hsc) hbc)
      = head y wc bc := by
  rw [matmul_plain_zero]
  funext i
  obtain ⟨p, q, rfl⟩ : ∃ (p : Fin M) (q : Fin C), i = ix2 p q := ⟨i 0, i 1, eq_ix2 i⟩
  show mm y wc (ix2 p q) + broadcastTo ⟨2, ![M, C]⟩ (shapeCast ⟨2, ![1, C]⟩ bc hsc) hbc (ix2 p q) = _
  rw [castRow_apply]
  rfl

/-! ## The host's spelling -/

/-- Two general dot products, added, plus the bias broadcast in two steps, rectified against a broadcast zero
    scalar: the update. -/
theorem host_upd {φ₁ φ₂ φ₃ φ₄ : FTy} (x : FVec Ideal ⟨2, ![M, K]⟩ φ₁) (h : FVec Ideal ⟨2, ![M, K]⟩ φ₂)
    (ws : FVec Ideal ⟨2, ![K, N]⟩ φ₃) (wn : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) (DotDims.plain M K N) none x ws)
                         (Host.dotGeneral (F := Ideal) (DotDims.plain M K N) none h wn))
                   (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = upd x h ws wn b := by
  rw [maximumf_broadcastInDim_zero, dotGeneral_plain, dotGeneral_plain]
  funext i
  obtain ⟨p, q, rfl⟩ : ∃ (p : Fin M) (q : Fin N), i = ix2 p q := ⟨i 0, i 1, eq_ix2 i⟩
  show max ((mm x ws (ix2 p q) + mm h wn (ix2 p q))
      + broadcastInDim ⟨2, ![M, N]⟩ ![0, 1] h2 (broadcastInDim ⟨2, ![1, N]⟩ ![1] h1 b) (ix2 p q)) 0 = _
  rw [bcastRow_apply]
  rfl

/-- A general dot product plus the bias broadcast in two steps: the head. -/
theorem host_head {φ₁ φ₂ : FTy} (y : FVec Ideal ⟨2, ![M, N]⟩ φ₁) (wc : FVec Ideal ⟨2, ![N, C]⟩ φ₂)
    (bc : FVec Ideal ⟨1, ![C]⟩ .f32) (h1 : (⟨1, ![C]⟩ : Shape).BroadcastsInDim ⟨2, ![1, C]⟩ ![1])
    (h2 : (⟨2, ![1, C]⟩ : Shape).BroadcastsInDim ⟨2, ![M, C]⟩ ![0, 1]) :
    addf (Host.dotGeneral (F := Ideal) (DotDims.plain M N C) none y wc)
        (broadcastInDim ⟨2, ![M, C]⟩ ![0, 1] h2 (broadcastInDim ⟨2, ![1, C]⟩ ![1] h1 bc))
      = head y wc bc := by
  rw [dotGeneral_plain]
  funext i
  obtain ⟨p, q, rfl⟩ : ∃ (p : Fin M) (q : Fin C), i = ix2 p q := ⟨i 0, i 1, eq_ix2 i⟩
  show mm y wc (ix2 p q) + broadcastInDim ⟨2, ![M, C]⟩ ![0, 1] h2 (broadcastInDim ⟨2, ![1, C]⟩ ![1] h1 bc) (ix2 p q) = _
  rw [bcastRow_apply]
  rfl

/-! ## Blocks of rows

  Stated over plain index variables: the block's operands are any arrays that agree entry by entry with the whole
  arrays — the row operands at rows ρ p, the weights and biases everywhere. -/

/-- A product on a block of rows, with a weight matrix that agrees with the whole one, is the whole product at
    those rows. -/
theorem mm_block {M' : ℕ} (A : Mat M' K) (blk : Mat M K) (W W' : Mat K N) (ρ : Fin M → Fin M')
    (ha : ∀ p k, blk (ix2 p k) = A (ix2 (ρ p) k)) (hw : ∀ k q, W' (ix2 k q) = W (ix2 k q)) (p : Fin M) (q : Fin N) :
    mm blk W' (ix2 p q) = mm A W (ix2 (ρ p) q) := by
  unfold mm
  refine Finset.sum_congr rfl fun k _ => ?_
  show blk (ix2 p k) * W' (ix2 k q) = A (ix2 (ρ p) k) * W (ix2 k q)
  rw [ha p k, hw k q]

/-- The update on a block of rows is the whole update at those rows. -/
theorem upd_block {M' : ℕ} (X H : Mat M' K) (bx bh : Mat M K) (Ws Wn Ws' Wn' : Mat K N) (b b' : Row N)
    (ρ : Fin M → Fin M') (hx : ∀ p k, bx (ix2 p k) = X (ix2 (ρ p) k)) (hh : ∀ p k, bh (ix2 p k) = H (ix2 (ρ p) k))
    (hws : ∀ k q, Ws' (ix2 k q) = Ws (ix2 k q)) (hwn : ∀ k q, Wn' (ix2 k q) = Wn (ix2 k q))
    (hb : ∀ q, b' (ix1 q) = b (ix1 q)) (p : Fin M) (q : Fin N) :
    upd bx bh Ws' Wn' b' (ix2 p q) = upd X H Ws Wn b (ix2 (ρ p) q) := by
  rw [upd_apply, upd_apply, mm_block X bx Ws Ws' ρ hx hws p q, mm_block H bh Wn Wn' ρ hh hwn p q, hb q]

/-- The head on a block of rows is the whole head at those rows. -/
theorem head_block {M' : ℕ} (Y : Mat M' N) (by' : Mat M N) (Wc Wc' : Mat N C) (bc bc' : Row C)
    (ρ : Fin M → Fin M') (hy : ∀ p k, by' (ix2 p k) = Y (ix2 (ρ p) k))
    (hwc : ∀ k q, Wc' (ix2 k q) = Wc (ix2 k q)) (hbc : ∀ q, bc' (ix1 q) = bc (ix1 q)) (p : Fin M) (q : Fin C) :
    head by' Wc' bc' (ix2 p q) = head Y Wc bc (ix2 (ρ p) q) := by
  rw [head_apply, head_apply, mm_block Y by' Wc Wc' ρ hy hwc p q, hbc q]

end Cert.SageUpdate

end
-- ==== Proof.Blocks0.lean ====
/-
  The first pipelined region: a matrix product computed block of rows by block of rows.

  The region walks 100 grid points; at point t it reads rows 8192·t … 8192·t + 8191 of the 819200 × 2 input and the
  whole 2 × 20 weight matrix, and writes the product of that block of rows with the weights into the same rows of
  the 819200 × 20 output. A row of a product depends on the same row of the left factor only, so the blocks written
  are the blocks of the product of the whole arrays, and since the blocks tile the output, the output array ends
  holding the whole product.
-/
import proofs.«100869_j65206193487903_1_alg».proof.Proof.Gen.KernelIdeal.Frame
import proofs.«100869_j65206193487903_1_alg».proof.Proof.LibSageUpdate
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed record of the block product is the plain M×K by K×N one. -/
theorem dot_plain : dot_S8192x2_S2x20_S8192x20_1_0_0_1_n_n = DotDims.plain 8192 2 20 := rfl

/-- The body's stored value is the product of the loaded block of rows with the loaded weights: the format changes
    and the cast to the same shape are the identity on the extended reals. -/
theorem payload_eq (x0 : Vec Ideal S8192x2 .f32) (x1 : Vec Ideal S2x20 .f32) : k0_pay1 x0 x1 = mm x0 x1 := by
  unfold k0_pay1
  simp only [shapeCast_self]
  rw [dot_plain]
  exact matmul_plain_zero none x0 x1

/-- The printed index maps over the grid: the row blocks advance with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 8192·t + p of the array. -/
def rowAt (t : Fin cfg0.N) (p : Fin 8192) : Fin 819200 :=
  ⟨t.val * 8192 + p.val, by have ht := t.isLt; have hp := p.isLt; have hN : cfg0.N = 100 := N_0; omega⟩

/-- The input block at point t, entry by entry. -/
theorem in_block (c : Dev nD) (t : Fin cfg0.N) (p : Fin 8192) (k : Fin 2) :
    (iblk0 V c 0 t : Vec Ideal S8192x2 .f32) (ix2 p k) = V c main_v0 (ix2 (rowAt t p) k) := by
  obtain ⟨e0, e1, -, -, -, -⟩ := idx_facts t
  show V c main_v0 (((cfg0.win 0).blk t).view.emb (ix2 p k)) = V c main_v0 (ix2 (rowAt t p) k)
  refine congrArg (V c main_v0) (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 2 + 1 * k.val = k.val; rw [e1]; omega

/-- The weight block at any point is the whole weight matrix. -/
theorem weight_block (c : Dev nD) (t : Fin cfg0.N) (k : Fin 2) (q : Fin 20) :
    (iblk0 V c 1 t : Vec Ideal S2x20 .f32) (ix2 k q) = V c main_arg2 (ix2 k q) := by
  obtain ⟨-, -, e2, e3, -, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 2 + 1 * k.val = k.val; rw [e2]; omega
  | ⟨1, _⟩ => show win0_1.index t (1 : Fin 2) * 20 + 1 * q.val = q.val; rw [e3]; omega

/-- What point t writes back is block t of the product of the whole arrays. -/
theorem flushed_eq (c : Dev nD) (t : Fin cfg0.N) :
    (dat0 V c).flushed 2 t = ((cfg0.win 2).blk t).view.read (Elt Ideal) (mm (M := 819200) (K := 2) (N := 20) (V c main_v0) (V c main_arg2)) := by
  show (cfg0.win 2).cut (grid0.coords t) ((dat0 V c).after 2 t) = _
  rw [after0_2]
  unfold out0_2
  rw [View.canon_unit_zero offsets_zero]
  simp only [View.ld_unit_zero (S := S8192x2) offsets_zero, View.ld_unit_zero (S := S2x20) offsets_zero]
  rw [payload_eq]
  obtain ⟨-, -, -, -, e4, e5⟩ := idx_facts t
  funext j
  obtain ⟨p, q, rfl⟩ : ∃ (p : Fin 8192) (q : Fin 20), j = ix2 p q := ⟨j 0, j 1, eq_ix2 j⟩
  show mm (iblk0 V c 0 t : Vec Ideal S8192x2 .f32) (iblk0 V c 1 t : Vec Ideal S2x20 .f32) (ix2 p q)
    = mm (M := 819200) (K := 2) (N := 20) (V c main_v0) (V c main_arg2) (((cfg0.win 2).blk t).view.emb (ix2 p q))
  have he : ((cfg0.win 2).blk t).view.emb (ix2 p q) = (ix2 (rowAt t p) q : S819200x20.Idx) := by
    funext a; apply Fin.ext
    match a with
    | ⟨0, _⟩ => show win0_2.index t (0 : Fin 2) * 8192 + 1 * p.val = t.val * 8192 + p.val; rw [e4]; omega
    | ⟨1, _⟩ => show win0_2.index t (1 : Fin 2) * 20 + 1 * q.val = q.val; rw [e5]; omega
  rw [he]
  exact Cert.SageUpdate.mm_block (V c main_v0) _ (V c main_arg2) _ (rowAt t) (in_block V c t) (weight_block V c t) p q

/-- An index of the output is in point t's block iff each coordinate is in the block's range on its axis. -/
theorem mem_blk (t : Fin cfg0.N) (i : S819200x20.Idx) :
    i ∈ ((cfg0.win 2).blk t).view.set ↔ ∀ a : Fin 2, win0_2.index t a * S8192x20.size a ≤ (i a).val ∧ (i a).val < win0_2.index t a * S8192x20.size a + S8192x20.size a := by
  show i ∈ ((View.whole main_v31).slice (win0_2.rect t)).set ↔ _
  rw [View.set_slice_whole, Rect.mem_set_unit]
  exact Iff.rfl

/-- Every index of the output is in some point's block: row r in the block of point r / 8192. -/
theorem cover (i : S819200x20.Idx) : ∃ t : Fin cfg0.N, (cfg0.win 2).flush t = true ∧ i ∈ ((cfg0.win 2).blk t).view.set := by
  have hi0 : (i 0).val < 819200 := (i 0).isLt
  have hi1 : (i 1).val < 20 := (i 1).isLt
  have hN : cfg0.N = 100 := N_0
  let t : Fin cfg0.N := ⟨(i 0).val / 8192, by omega⟩
  obtain ⟨-, -, -, -, e4, e5⟩ := idx_facts t
  have e4' : win0_2.index t (0 : Fin 2) = (i 0).val / 8192 := e4
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; rw [e4']; omega
  | ⟨1, _⟩ => show win0_2.index t (1 : Fin 2) * 20 ≤ (i 1).val ∧ (i 1).val < win0_2.index t (1 : Fin 2) * 20 + 20; rw [e5]; omega

/-- The output array after the region: the product of the input array with the weight matrix, as the region found
    them. -/
theorem final (c : Dev nD) :
    (dat0 V c).arrAt 2 cfg0.N = mm (M := 819200) (K := 2) (N := 20) (V c main_v0) (V c main_arg2) :=
  (dat0 V c).arrAt_eq_of_cover 2 _ (fun t _ => flushed_eq V c t) cover

end Cert.KernelIdeal.Region0

end
-- ==== Proof.LibNormRelu.lean ====
/-
  Normalise, scale, shift and rectify, with the column statistics given.

  Entry (r, k) of the result is max(((x(r,k) − μ(k)) · (σ²(k) + ε)^(−1/2)) · γ(k) + β(k), 0) on the extended reals,
  with ε the f32 word 0x3727C5AC kept as it is. The four per-column quantities may be stored as vectors of length N or
  as one-row matrices; the two storages give one function. The vector unit's spelling (one-row operands broadcast
  over the rows, a maximum with a splat zero, a change of float format at the end) and the host's spelling (vectors
  broadcast in two steps, the reciprocal square root taken on the vector, a maximum with a broadcast zero scalar) are
  each this function. An entry depends on row r of x only, so the function computed on a block of rows, with the same
  statistics, is the function of the whole array at those rows. No finiteness is asked of any operand.
-/
import proofs.«100869_j65206193487903_1_alg».proof.Proof.LibSageUpdate

noncomputable section

namespace Cert.NormRelu

open Idealize.ShloMosaic Idealize.ShloMosaic.ValueIdx Cert.Dense

variable {M N : ℕ}

/-- The scalar function: max(((x − μ) · rsqrt(σ² + ε)) · γ + β, 0). -/
def act (x mu var g b : EReal) : EReal :=
  max ((((x - mu) * Ideal.rsqrt (var + Ideal.ofBits .f32 0x3727C5AC#32)) * g) + b) 0

/-- The array function with the statistics stored as vectors. -/
def normRelu (X : Mat M N) (mu var g b : Row N) : Mat M N := fun i =>
  act (X i) (mu (ix1 (i 1))) (var (ix1 (i 1))) (g (ix1 (i 1))) (b (ix1 (i 1)))

/-- The array function with the statistics stored as one-row matrices. -/
def normRelu2 (X : Mat M N) (mu var g b : Mat 1 N) : Mat M N := fun i =>
  act (X i) (mu (ix2 (0 : Fin 1) (i 1))) (var (ix2 (0 : Fin 1) (i 1))) (g (ix2 (0 : Fin 1) (i 1))) (b (ix2 (0 : Fin 1) (i 1)))

theorem normRelu_apply (X : Mat M N) (mu var g b : Row N) (p : Fin M) (q : Fin N) :
    normRelu X mu var g b (ix2 p q) = act (X (ix2 p q)) (mu (ix1 q)) (var (ix1 q)) (g (ix1 q)) (b (ix1 q)) := rfl

theorem normRelu2_apply (X : Mat M N) (mu var g b : Mat 1 N) (p : Fin M) (q : Fin N) :
    normRelu2 X mu var g b (ix2 p q)
      = act (X (ix2 p q)) (mu (ix2 (0 : Fin 1) q)) (var (ix2 (0 : Fin 1) q)) (g (ix2 (0 : Fin 1) q)) (b (ix2 (0 : Fin 1) q)) := rfl

/-- The statistics cast from vectors to one-row matrices: the two storages give one function. -/
theorem normRelu2_cast (X : Mat M N) (mu var g b : Row N) (h : (⟨1, ![N]⟩ : Shape).ShapeCasts ⟨2, ![1, N]⟩) :
    normRelu2 X (shapeCast ⟨2, ![1, N]⟩ mu h) (shapeCast ⟨2, ![1, N]⟩ var h) (shapeCast ⟨2, ![1, N]⟩ g h) (shapeCast ⟨2, ![1, N]⟩ b h)
      = normRelu X mu var g b := by
  funext i
  obtain ⟨p, q, rfl⟩ : ∃ (p : Fin M) (q : Fin N), i = ix2 p q := ⟨i 0, i 1, eq_ix2 i⟩
  rw [normRelu2_apply, normRelu_apply, shapeCast_a_1a_apply, shapeCast_a_1a_apply, shapeCast_a_1a_apply, shapeCast_a_1a_apply]

/-! ## The vector unit's spelling -/

/-- One-row statistics broadcast over the rows, the reciprocal square root taken on the row, a maximum with a splat
    zero, a change of float format at the end. -/
theorem kernel_normRelu {ψ : FTy} (x : FVec Ideal ⟨2, ![M, N]⟩ .f32) (mu var g b : FVec Ideal ⟨2, ![1, N]⟩ .f32)
    (hb : (⟨2, ![1, N]⟩ : Shape).Broadcasts ⟨2, ![M, N]⟩) (hlt : ψ.bits < FTy.f32.bits) :
    truncf ψ (maximumf (addf (mulf (mulf (subf x (broadcastTo ⟨2, ![M, N]⟩ mu hb))
        (broadcastTo ⟨2, ![M, N]⟩ (rsqrt (addf var (broadcast ⟨2, ![1, N]⟩ (Scalar.ofBits (F := Ideal) .f32 0x3727C5AC#32)))) hb))
        (broadcastTo ⟨2, ![M, N]⟩ g hb)) (broadcastTo ⟨2, ![M, N]⟩ b hb))
        (broadcast ⟨2, ![M, N]⟩ (Scalar.ofBits (F := Ideal) .f32 0x00000000#32))) hlt
      = normRelu2 x mu var g b := by
  funext i
  obtain ⟨p, q, rfl⟩ : ∃ (p : Fin M) (q : Fin N), i = ix2 p q := ⟨i 0, i 1, eq_ix2 i⟩
  show max ((((x (ix2 p q) - broadcastTo ⟨2, ![M, N]⟩ mu hb (ix2 p q))
      * broadcastTo ⟨2, ![M, N]⟩ (rsqrt (addf var (broadcast ⟨2, ![1, N]⟩ (Scalar.ofBits (F := Ideal) .f32 0x3727C5AC#32)))) hb (ix2 p q))
      * broadcastTo ⟨2, ![M, N]⟩ g hb (ix2 p q)) + broadcastTo ⟨2, ![M, N]⟩ b hb (ix2 p q)) (Ideal.ofBits .f32 0x00000000#32) = _
  rw [broadcastTo_1b_ab_apply, broadcastTo_1b_ab_apply, broadcastTo_1b_ab_apply, broadcastTo_1b_ab_apply, Ideal.ofBits_zero_f32]
  rfl

/-! ## The host's spelling -/

/-- A scalar constant broadcast to a vector reads the constant's word at every entry. -/
theorem splat_apply (w : BitVec 32) (he : (⟨0, ![]⟩ : Shape).BroadcastsInDim ⟨1, ![N]⟩ ![]) (q : Fin N) :
    broadcastInDim ⟨1, ![N]⟩ ![] he (constant (F := Ideal) ⟨0, ![]⟩ .f32 w) (ix1 q) = Ideal.ofBits .f32 w := by
  rw [broadcastInDim_apply ![] he _ (ix1 q) ix0 (fun ax => ax.elim0)]
  rfl

/-- Vector statistics broadcast in two steps, the reciprocal square root taken on the vector, a maximum with a
    broadcast zero scalar. -/
theorem host_normRelu (a : FVec Ideal ⟨2, ![M, N]⟩ .f32) (mu var g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (he : (⟨0, ![]⟩ : Shape).BroadcastsInDim ⟨1, ![N]⟩ ![])
    (h0 : (⟨0, ![]⟩ : Shape).BroadcastsInDim ⟨2, ![M, N]⟩ ![]) :
    maximumf (addf (mulf (mulf (subf a (broadcastInDim ⟨2, ![M, N]⟩ ![0, 1] h2 (broadcastInDim ⟨2, ![1, N]⟩ ![1] h1 mu)))
        (broadcastInDim ⟨2, ![M, N]⟩ ![0, 1] h2 (broadcastInDim ⟨2, ![1, N]⟩ ![1] h1
          (Host.rsqrt (addf var (broadcastInDim ⟨1, ![N]⟩ ![] he (constant (F := Ideal) ⟨0, ![]⟩ .f32 0x3727C5AC#32)))))))
        (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = normRelu a mu var g b := by
  rw [maximumf_broadcastInDim_zero]
  funext i
  obtain ⟨p, q, rfl⟩ : ∃ (p : Fin M) (q : Fin N), i = ix2 p q := ⟨i 0, i 1, eq_ix2 i⟩
  show max ((((a (ix2 p q) - broadcastInDim ⟨2, ![M, N]⟩ ![0, 1] h2 (broadcastInDim ⟨2, ![1, N]⟩ ![1] h1 mu) (ix2 p q))
      * broadcastInDim ⟨2, ![M, N]⟩ ![0, 1] h2 (broadcastInDim ⟨2, ![1, N]⟩ ![1] h1
          (Host.rsqrt (addf var (broadcastInDim ⟨1, ![N]⟩ ![] he (constant (F := Ideal) ⟨0, ![]⟩ .f32 0x3727C5AC#32))))) (ix2 p q))
      * broadcastInDim ⟨2, ![M, N]⟩ ![0, 1] h2 (broadcastInDim ⟨2, ![1, N]⟩ ![1] h1 g) (ix2 p q))
      + broadcastInDim ⟨2, ![M, N]⟩ ![0, 1] h2 (broadcastInDim ⟨2, ![1, N]⟩ ![1] h1 b) (ix2 p q)) 0 = _
  rw [Cert.SageUpdate.bcastRow_apply, Cert.SageUpdate.bcastRow_apply, Cert.SageUpdate.bcastRow_apply, Cert.SageUpdate.bcastRow_apply]
  show max ((((a (ix2 p q) - mu (ix1 q))
      * Ideal.rsqrt (var (ix1 q) + broadcastInDim ⟨1, ![N]⟩ ![] he (constant (F := Ideal) ⟨0, ![]⟩ .f32 0x3727C5AC#32) (ix1 q)))
      * g (ix1 q)) + b (ix1 q)) 0 = _
  rw [splat_apply]
  rfl

/-! ## Blocks of rows -/

/-- The function on a block of rows, with statistics that agree entry by entry, is the function of the whole array
    at those rows. -/
theorem normRelu2_block {M' : ℕ} (A : Mat M' N) (blk : Mat M N) (mu var g b mu' var' g' b' : Mat 1 N) (ρ : Fin M → Fin M')
    (ha : ∀ p q, blk (ix2 p q) = A (ix2 (ρ p) q))
    (hmu : ∀ q, mu' (ix2 (0 : Fin 1) q) = mu (ix2 (0 : Fin 1) q)) (hvar : ∀ q, var' (ix2 (0 : Fin 1) q) = var (ix2 (0 : Fin 1) q))
    (hg : ∀ q, g' (ix2 (0 : Fin 1) q) = g (ix2 (0 : Fin 1) q)) (hb : ∀ q, b' (ix2 (0 : Fin 1) q) = b (ix2 (0 : Fin 1) q))
    (p : Fin M) (q : Fin N) :
    normRelu2 blk mu' var' g' b' (ix2 p q) = normRelu2 A mu var g b (ix2 (ρ p) q) := by
  rw [normRelu2_apply, normRelu2_apply, ha p q, hmu q, hvar q, hg q, hb q]

end Cert.NormRelu

end
-- ==== Proof.Blocks1.lean ====
/-
  The second pipelined region: normalise, scale, shift and rectify, block of rows by block of rows.

  The region walks 100 grid points; at point t it reads rows 8192·t … 8192·t + 8191 of the 819200 × 20 input and the
  four one-row arrays of column statistics (mean, variance, scale, shift) whole, and writes
  max(((x − μ) · (σ² + ε)^(−1/2)) · γ + β, 0) of that block of rows into the same rows of the 819200 × 20 output. An
  entry depends on the same entry of the input and on its column's statistics only, so the blocks written are the
  blocks of the function of the whole arrays, and since the blocks tile the output, the output array ends holding
  the function of the whole arrays.
-/
import proofs.«100869_j65206193487903_1_alg».proof.Proof.Gen.KernelIdeal.Frame
import proofs.«100869_j65206193487903_1_alg».proof.Proof.LibNormRelu
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Dense Cert.NormRelu

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the function of the loaded block of rows and the loaded statistics: the casts to the
    same shape are the identity. -/
theorem payload_eq (x0 : Vec Ideal S8192x20 .f32) (x1 x2 x3 x4 : Vec Ideal S1x20 .f32) :
    k1_pay1 x0 x1 x2 x3 x4 = normRelu2 (M := 8192) (N := 20) x0 x1 x2 x3 x4 := by
  unfold k1_pay1
  simp only [shapeCast_self]
  exact kernel_normRelu x0 x1 x2 x3 x4 _ _

/-- The printed index maps over the grid: the row blocks advance with the point, the statistics stay. -/
theorem idx_facts : ∀ t : Fin cfg1.N, (win1_0.index t (0 : Fin 2) = t.val ∧ win1_0.index t (1 : Fin 2) = 0)
    ∧ (win1_5.index t (0 : Fin 2) = t.val ∧ win1_5.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-- Row p of point t's block is row 8192·t + p of the array. -/
def rowAt (t : Fin cfg1.N) (p : Fin 8192) : Fin 819200 :=
  ⟨t.val * 8192 + p.val, by have ht := t.isLt; have hp := p.isLt; have hN : cfg1.N = 100 := N_1; omega⟩

/-- The input block at point t, entry by entry. -/
theorem in_block (c : Dev nD) (t : Fin cfg1.N) (p : Fin 8192) (q : Fin 20) :
    (iblk1 V c 0 t : Vec Ideal S8192x20 .f32) (ix2 p q) = V c main_v47 (ix2 (rowAt t p) q) := by
  obtain ⟨e0, e1⟩ := (idx_facts t).1
  show V c main_v47 (((cfg1.win 0).blk t).view.emb (ix2 p q)) = V c main_v47 (ix2 (rowAt t p) q)
  refine congrArg (V c main_v47) (funext fun a => Fin.ext ?_)
  match a with
  | ⟨0, _⟩ => show win1_0.index t (0 : Fin 2) * 8192 + 1 * p.val = t.val * 8192 + p.val; rw [e0]; omega
  | ⟨1, _⟩ => show win1_0.index t (1 : Fin 2) * 20 + 1 * q.val = q.val; rw [e1]; omega

/-- The mean row at any point is the whole one-row array. -/
theorem stat1_block (c : Dev nD) (t : Fin cfg1.N) (q : Fin 20) :
    (iblk1 V c 1 t : Vec Ideal S1x20 .f32) (ix2 (0 : Fin 1) q) = V c main_v58 (ix2 (0 : Fin 1) q) := by
  obtain ⟨e0, e1⟩ := (idx_facts t).2.2.1
  show V c main_v58 (((cfg1.win 1).blk t).view.emb (ix2 (0 : Fin 1) q)) = V c main_v58 (ix2 (0 : Fin 1) q)
  refine congrArg (V c main_v58) (funext fun a => Fin.ext ?_)
  match a with
  | ⟨0, _⟩ => show win1_1.index t (0 : Fin 2) * 1 + 1 * 0 = 0; rw [e0]
  | ⟨1, _⟩ => show win1_1.index t (1 : Fin 2) * 20 + 1 * q.val = q.val; rw [e1]; omega

/-- The variance row at any point is the whole one-row array. -/
theorem stat2_block (c : Dev nD) (t : Fin cfg1.N) (q : Fin 20) :
    (iblk1 V c 2 t : Vec Ideal S1x20 .f32) (ix2 (0 : Fin 1) q) = V c main_v59 (ix2 (0 : Fin 1) q) := by
  obtain ⟨e0, e1⟩ := (idx_facts t).2.2.2.1
  show V c main_v59 (((cfg1.win 2).blk t).view.emb (ix2 (0 : Fin 1) q)) = V c main_v59 (ix2 (0 : Fin 1) q)
  refine congrArg (V c main_v59) (funext fun a => Fin.ext ?_)
  match a with
  | ⟨0, _⟩ => show win1_2.index t (0 : Fin 2) * 1 + 1 * 0 = 0; rw [e0]
  | ⟨1, _⟩ => show win1_2.index t (1 : Fin 2) * 20 + 1 * q.val = q.val; rw [e1]; omega

/-- The scale row at any point is the whole one-row array. -/
theorem stat3_block (c : Dev nD) (t : Fin cfg1.N) (q : Fin 20) :
    (iblk1 V c 3 t : Vec Ideal S1x20 .f32) (ix2 (0 : Fin 1) q) = V c main_v60 (ix2 (0 : Fin 1) q) := by
  obtain ⟨e0, e1⟩ := (idx_facts t).2.2.2.2.1
  show V c main_v60 (((cfg1.win 3).blk t).view.emb (ix2 (0 : Fin 1) q)) = V c main_v60 (ix2 (0 : Fin 1) q)
  refine congrArg (V c main_v60) (funext fun a => Fin.ext ?_)
  match a with
  | ⟨0, _⟩ => show win1_3.index t (0 : Fin 2) * 1 + 1 * 0 = 0; rw [e0]
  | ⟨1, _⟩ => show win1_3.index t (1 : Fin 2) * 20 + 1 * q.val = q.val; rw [e1]; omega

/-- The shift row at any point is the whole one-row array. -/
theorem stat4_block (c : Dev nD) (t : Fin cfg1.N) (q : Fin 20) :
    (iblk1 V c 4 t : Vec Ideal S1x20 .f32) (ix2 (0 : Fin 1) q) = V c main_v61 (ix2 (0 : Fin 1) q) := by
  obtain ⟨e0, e1⟩ := (idx_facts t).2.2.2.2.2
  show V c main_v61 (((cfg1.win 4).blk t).view.emb (ix2 (0 : Fin 1) q)) = V c main_v61 (ix2 (0 : Fin 1) q)
  refine congrArg (V c main_v61) (funext fun a => Fin.ext ?_)
  match a with
  | ⟨0, _⟩ => show win1_4.index t (0 : Fin 2) * 1 + 1 * 0 = 0; rw [e0]
  | ⟨1, _⟩ => show win1_4.index t (1 : Fin 2) * 20 + 1 * q.val = q.val; rw [e1]; omega

/-- What point t writes back is block t of the function of the whole arrays. -/
theorem flushed_eq (c : Dev nD) (t : Fin cfg1.N) :
    (dat1 V c).flushed 5 t = ((cfg1.win 5).blk t).view.read (Elt Ideal)
      (normRelu2 (M := 819200) (N := 20) (V c main_v47) (V c main_v58) (V c main_v59) (V c main_v60) (V c main_v61)) := by
  show (cfg1.win 5).cut (grid1.coords t) ((dat1 V c).after 5 t) = _
  rw [after1_5]
  unfold out1_5
  rw [View.canon_unit_zero offsets_zero]
  simp only [View.ld_unit_zero (S := S8192x20) offsets_zero, View.ld_unit_zero (S := S1x20) offsets_zero]
  rw [payload_eq]
  obtain ⟨e4, e5⟩ := (idx_facts t).2.1
  funext j
  obtain ⟨p, q, rfl⟩ : ∃ (p : Fin 8192) (q : Fin 20), j = ix2 p q := ⟨j 0, j 1, eq_ix2 j⟩
  show normRelu2 (M := 8192) (N := 20) (iblk1 V c 0 t : Vec Ideal S8192x20 .f32) (iblk1 V c 1 t : Vec Ideal S1x20 .f32)
      (iblk1 V c 2 t : Vec Ideal S1x20 .f32) (iblk1 V c 3 t : Vec Ideal S1x20 .f32) (iblk1 V c 4 t : Vec Ideal S1x20 .f32) (ix2 p q)
    = normRelu2 (M := 819200) (N := 20) (V c main_v47) (V c main_v58) (V c main_v59) (V c main_v60) (V c main_v61)
        (((cfg1.win 5).blk t).view.emb (ix2 p q))
  have he : ((cfg1.win 5).blk t).view.emb (ix2 p q) = (ix2 (rowAt t p) q : S819200x20.Idx) := by
    funext a; apply Fin.ext
    match a with
    | ⟨0, _⟩ => show win1_5.index t (0 : Fin 2) * 8192 + 1 * p.val = t.val * 8192 + p.val; rw [e4]; omega
    | ⟨1, _⟩ => show win1_5.index t (1 : Fin 2) * 20 + 1 * q.val = q.val; rw [e5]; omega
  rw [he]
  exact normRelu2_block (V c main_v47) _ (V c main_v58) (V c main_v59) (V c main_v60) (V c main_v61) _ _ _ _ (rowAt t)
    (in_block V c t) (stat1_block V c t) (stat2_block V c t) (stat3_block V c t) (stat4_block V c t) p q

/-- An index of the output is in point t's block iff each coordinate is in the block's range on its axis. -/
theorem mem_blk (t : Fin cfg1.N) (i : S819200x20.Idx) :
    i ∈ ((cfg1.win 5).blk t).view.set ↔ ∀ a : Fin 2, win1_5.index t a * S8192x20.size a ≤ (i a).val ∧ (i a).val < win1_5.index t a * S8192x20.size a + S8192x20.size a := by
  show i ∈ ((View.whole main_v62).slice (win1_5.rect t)).set ↔ _
  rw [View.set_slice_whole, Rect.mem_set_unit]
  exact Iff.rfl

/-- Every index of the output is in some point's block: row r in the block of point r / 8192. -/
theorem cover (i : S819200x20.Idx) : ∃ t : Fin cfg1.N, (cfg1.win 5).flush t = true ∧ i ∈ ((cfg1.win 5).blk t).view.set := by
  have hi0 : (i 0).val < 819200 := (i 0).isLt
  have hi1 : (i 1).val < 20 := (i 1).isLt
  have hN : cfg1.N = 100 := N_1
  let t : Fin cfg1.N := ⟨(i 0).val / 8192, by omega⟩
  obtain ⟨e4, e5⟩ := (idx_facts t).2.1
  have e4' : win1_5.index t (0 : Fin 2) = (i 0).val / 8192 := e4
  refine ⟨t, flush1_5 t, ?_⟩
  rw [mem_blk]
  intro a
  match a with
  | ⟨0, _⟩ => show win1_5.index t (0 : Fin 2) * 8192 ≤ (i 0).val ∧ (i 0).val < win1_5.index t (0 : Fin 2) * 8192 + 8192; rw [e4']; omega
  | ⟨1, _⟩ => show win1_5.index t (1 : Fin 2) * 20 ≤ (i 1).val ∧ (i 1).val < win1_5.index t (1 : Fin 2) * 20 + 20; rw [e5]; omega

/-- The output array after the region: the function of the input array and the four statistics rows, as the region
    found them. -/
theorem final (c : Dev nD) :
    (dat1 V c).arrAt 5 cfg1.N
      = normRelu2 (M := 819200) (N := 20) (V c main_v47) (V c main_v58) (V c main_v59) (V c main_v60) (V c main_v61) :=
  (dat1 V c).arrAt_eq_of_cover 5 _ (fun t _ => flushed_eq V c t) cover

end Cert.KernelIdeal.Region1

end
-- ==== Proof.Blocks2.lean ====
/-
  The third pipelined region: a matrix product computed block of rows by block of rows.

  The region walks 100 grid points; at point t it reads rows 8192·t … 8192·t + 8191 of the 819200 × 20 input and the
  whole 20 × 2 weight matrix, and writes the product of that block of rows with the weights into the same rows of
  the 819200 × 2 output. A row of a product depends on the same row of the left factor only, so the blocks written
  are the blocks of the product of the whole arrays, and since the blocks tile the output, the output array ends
  holding the whole product. (The input rows are stored in a shorter float format; on the extended reals that changes nothing.)
-/
import proofs.«100869_j65206193487903_1_alg».proof.Proof.Gen.KernelIdeal.Frame
import proofs.«100869_j65206193487903_1_alg».proof.Proof.LibSageUpdate
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed record of the block product is the plain M×K by K×N one. -/
theorem dot_plain : dot_S8192x20_S20x2_S8192x2_1_0_0_1_n_n = DotDims.plain 8192 20 2 := rfl

/-- The body's stored value is the product of the loaded block of rows with the loaded weights: the format changes
    and the cast to the same shape are the identity on the extended reals. -/
theorem payload_eq (x0 : Vec Ideal S8192x20 .bf16) (x1 : Vec Ideal S20x2 .f32) : k2_pay1 x0 x1 = mm x0 x1 := by
  unfold k2_pay1
  simp only [shapeCast_self]
  rw [dot_plain]
  exact matmul_plain_zero none x0 x1

/-- The printed index maps over the grid: the row blocks advance with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's block is row 8192·t + p of the array. -/
def rowAt (t : Fin cfg2.N) (p : Fin 8192) : Fin 819200 :=
  ⟨t.val * 8192 + p.val, by have ht := t.isLt; have hp := p.isLt; have hN : cfg2.N = 100 := N_2; omega⟩

/-- The input block at point t, entry by entry. -/
theorem in_block (c : Dev nD) (t : Fin cfg2.N) (p : Fin 8192) (k : Fin 20) :
    (iblk2 V c 0 t : Vec Ideal S8192x20 .bf16) (ix2 p k) = V c main_v62 (ix2 (rowAt t p) k) := by
  obtain ⟨e0, e1, -, -, -, -⟩ := idx_facts t
  show V c main_v62 (((cfg2.win 0).blk t).view.emb (ix2 p k)) = V c main_v62 (ix2 (rowAt t p) k)
  refine congrArg (V c main_v62) (funext fun a => Fin.ext ?_)
  match a with
  | ⟨0, _⟩ => show win2_0.index t (0 : Fin 2) * 8192 + 1 * p.val = t.val * 8192 + p.val; rw [e0]; omega
  | ⟨1, _⟩ => show win2_0.index t (1 : Fin 2) * 20 + 1 * k.val = k.val; rw [e1]; omega

/-- The weight block at any point is the whole weight matrix. -/
theorem weight_block (c : Dev nD) (t : Fin cfg2.N) (k : Fin 20) (q : Fin 2) :
    (iblk2 V c 1 t : Vec Ideal S20x2 .f32) (ix2 k q) = V c main_arg6 (ix2 k q) := by
  obtain ⟨-, -, e2, e3, -, -⟩ := idx_facts t
  show V c main_arg6 (((cfg2.win 1).blk t).view.emb (ix2 k q)) = V c main_arg6 (ix2 k q)
  refine congrArg (V c main_arg6) (funext fun a => Fin.ext ?_)
  match a with
  | ⟨0, _⟩ => show win2_1.index t (0 : Fin 2) * 20 + 1 * k.val = k.val; rw [e2]; omega
  | ⟨1, _⟩ => show win2_1.index t (1 : Fin 2) * 2 + 1 * q.val = q.val; rw [e3]; omega

/-- What point t writes back is block t of the product of the whole arrays. -/
theorem flushed_eq (c : Dev nD) (t : Fin cfg2.N) :
    (dat2 V c).flushed 2 t = ((cfg2.win 2).blk t).view.read (Elt Ideal) (mm (M := 819200) (K := 20) (N := 2) (V c main_v62) (V c main_arg6)) := by
  show (cfg2.win 2).cut (grid2.coords t) ((dat2 V c).after 2 t) = _
  rw [after2_2]
  unfold out2_2
  rw [View.canon_unit_zero offsets_zero]
  simp only [View.ld_unit_zero (S := S8192x20) offsets_zero, View.ld_unit_zero (S := S20x2) offsets_zero]
  rw [payload_eq]
  obtain ⟨-, -, -, -, e4, e5⟩ := idx_facts t
  funext j
  obtain ⟨p, q, rfl⟩ : ∃ (p : Fin 8192) (q : Fin 2), j = ix2 p q := ⟨j 0, j 1, eq_ix2 j⟩
  show mm (iblk2 V c 0 t : Vec Ideal S8192x20 .bf16) (iblk2 V c 1 t : Vec Ideal S20x2 .f32) (ix2 p q)
    = mm (M := 819200) (K := 20) (N := 2) (V c main_v62) (V c main_arg6) (((cfg2.win 2).blk t).view.emb (ix2 p q))
  have he : ((cfg2.win 2).blk t).view.emb (ix2 p q) = (ix2 (rowAt t p) q : S819200x2.Idx) := by
    funext a; apply Fin.ext
    match a with
    | ⟨0, _⟩ => show win2_2.index t (0 : Fin 2) * 8192 + 1 * p.val = t.val * 8192 + p.val; rw [e4]; omega
    | ⟨1, _⟩ => show win2_2.index t (1 : Fin 2) * 2 + 1 * q.val = q.val; rw [e5]; omega
  rw [he]
  exact Cert.SageUpdate.mm_block (V c main_v62) _ (V c main_arg6) _ (rowAt t) (in_block V c t) (weight_block V c t) p q

/-- An index of the output is in point t's block iff each coordinate is in the block's range on its axis. -/
theorem mem_blk (t : Fin cfg2.N) (i : S819200x2.Idx) :
    i ∈ ((cfg2.win 2).blk t).view.set ↔ ∀ a : Fin 2, win2_2.index t a * S8192x2.size a ≤ (i a).val ∧ (i a).val < win2_2.index t a * S8192x2.size a + S8192x2.size a := by
  show i ∈ ((View.whole main_v63).slice (win2_2.rect t)).set ↔ _
  rw [View.set_slice_whole, Rect.mem_set_unit]
  exact Iff.rfl

/-- Every index of the output is in some point's block: row r in the block of point r / 8192. -/
theorem cover (i : S819200x2.Idx) : ∃ t : Fin cfg2.N, (cfg2.win 2).flush t = true ∧ i ∈ ((cfg2.win 2).blk t).view.set := by
  have hi0 : (i 0).val < 819200 := (i 0).isLt
  have hi1 : (i 1).val < 2 := (i 1).isLt
  have hN : cfg2.N = 100 := N_2
  let t : Fin cfg2.N := ⟨(i 0).val / 8192, by omega⟩
  obtain ⟨-, -, -, -, e4, e5⟩ := idx_facts t
  have e4' : win2_2.index t (0 : Fin 2) = (i 0).val / 8192 := e4
  refine ⟨t, flush2_2 t, ?_⟩
  rw [mem_blk]
  intro a
  match a with
  | ⟨0, _⟩ => show win2_2.index t (0 : Fin 2) * 8192 ≤ (i 0).val ∧ (i 0).val < win2_2.index t (0 : Fin 2) * 8192 + 8192; rw [e4']; omega
  | ⟨1, _⟩ => show win2_2.index t (1 : Fin 2) * 2 ≤ (i 1).val ∧ (i 1).val < win2_2.index t (1 : Fin 2) * 2 + 2; rw [e5]; omega

/-- The output array after the region: the product of the input array with the weight matrix, as the region found
    them. -/
theorem final (c : Dev nD) :
    (dat2 V c).arrAt 2 cfg2.N = mm (M := 819200) (K := 20) (N := 2) (V c main_v62) (V c main_arg6) :=
  (dat2 V c).arrAt_eq_of_cover 2 _ (fun t _ => flushed_eq V c t) cover

end Cert.KernelIdeal.Region2

end
-- ==== Proof.Stats.lean ====
/-
  The statistics the middle region reads.

  The host's chain for the middle region as functions of the aggregated array: its column means, its column
  variances (the column means of the squared deviations), and the normalise-scale-shift-rectify function at the
  array's own statistics. At the middle region's entry the four one-row arrays the region reads are the column means
  and variances of the aggregated array and the scale and shift vectors, each cast to one row: the host operations
  just before the region compute exactly those.
-/
import proofs.«100869_j65206193487903_1_alg».proof.Proof.Gen.KernelIdeal.Frame
import proofs.«100869_j65206193487903_1_alg».proof.Proof.LibNormRelu
import Idealize.ShloMosaic.Lib.StableHlo.Run

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.StableHlo (after_cons after_nil)
open Cert.Dense Cert.NormRelu

/-! ## The host's chain for the middle region, as functions of the input array (for any float values) -/

section Chain
variable {F : FTy → Type} [FloatOps F]

/-- A vector of 20 column values laid over the 819200 rows. -/
def spread (v : FVec F S20 .f32) : FVec F S819200x20 .f32 :=
  broadcastInDim S819200x20 ![0, 1] bcast_S1x20_S819200x20_0_1 (broadcastInDim S1x20 ![1] bcast_S20_S1x20_1 v)

/-- The column means: the column sums divided by the number of rows. -/
def colMean (a : FVec F S819200x20 .f32) : FVec F S20 .f32 :=
  Host.divf (Host.reduceAdd a (constant (F := F) S_ .f32 0x00000000#32) reducesTo_S819200x20_S20_d0 h_S_)
    (broadcastInDim S20 ![] bcast_S_S20 (constant (F := F) S_ .f32 0x49480000#32))

/-- The column variances: the column means of the squared deviations from the column means. -/
def colVar (a : FVec F S819200x20 .f32) : FVec F S20 .f32 :=
  Host.divf (Host.reduceAdd (mulf (subf a (spread (colMean a))) (subf a (spread (colMean a))))
      (constant (F := F) S_ .f32 0x00000000#32) reducesTo_S819200x20_S20_d0 h_S_)
    (broadcastInDim S20 ![] bcast_S_S20 (constant (F := F) S_ .f32 0x49480000#32))

/-- Normalise by the array's own column statistics, scale, shift, rectify: the host's spelling. -/
def normalize (a : FVec F S819200x20 .f32) (g b : FVec F S20 .f32) : FVec F S819200x20 .f32 :=
  maximumf (addf (mulf (mulf (subf a (spread (colMean a)))
      (spread (Host.rsqrt (addf (colVar a) (broadcastInDim S20 ![] bcast_S_S20 (constant (F := F) S_ .f32 0x3727C5AC#32))))))
      (spread g)) (spread b))
    (broadcastInDim S819200x20 ![] bcast_S_S819200x20 (constant (F := F) S_ .f32 0x00000000#32))

end Chain

/-- The host's chain is the entry function at the array's own statistics. -/
theorem normalize_eq (a : FVec Ideal S819200x20 .f32) (g b : FVec Ideal S20 .f32) :
    normalize (F := Ideal) a g b = normRelu (M := 819200) (N := 20) a (colMean a) (colVar a) g b := by
  unfold normalize spread
  exact host_normRelu a (colMean a) (colVar a) g b _ _ _ _

variable (m : (ℓ : Loc nD τ sig) → Buf (Elt Ideal) ℓ) (ρ : Dev nD → PrngReg)

/-! ## The statistics rows at the middle region's entry -/

set_option maxHeartbeats 4000000 in
/-- At the second region's entry the mean row is the column means of the aggregated array, cast to one row. -/
theorem W5_mean (c : Dev nD) : W5 m ρ c (Proc.devRef .tc main_v58)
    = shapeCast S1x20 (colMean (F := Ideal) (W5 m ρ c (Proc.devRef .tc main_v47))) shapeCasts_S20_S1x20 := by
  show StableHlo.after hostOps1 (W4 m ρ c) (Proc.devRef .tc main_v58)
    = shapeCast S1x20 (colMean (F := Ideal) (StableHlo.after hostOps1 (W4 m ρ c) (Proc.devRef .tc main_v47))) shapeCasts_S20_S1x20
  dsimp only [hostOps1]
  after_results_simp
  rfl

set_option maxHeartbeats 4000000 in
/-- The variance row is the column variances of the aggregated array, cast to one row. -/
theorem W5_var (c : Dev nD) : W5 m ρ c (Proc.devRef .tc main_v59)
    = shapeCast S1x20 (colVar (F := Ideal) (W5 m ρ c (Proc.devRef .tc main_v47))) shapeCasts_S20_S1x20 := by
  show StableHlo.after hostOps1 (W4 m ρ c) (Proc.devRef .tc main_v59)
    = shapeCast S1x20 (colVar (F := Ideal) (StableHlo.after hostOps1 (W4 m ρ c) (Proc.devRef .tc main_v47))) shapeCasts_S20_S1x20
  dsimp only [hostOps1]
  after_results_simp
  rfl

set_option maxHeartbeats 4000000 in
/-- The scale row is the scale vector cast to one row. -/
theorem W5_scale (c : Dev nD) : W5 m ρ c (Proc.devRef .tc main_v60)
    = shapeCast S1x20 (W5 m ρ c (Proc.devRef .tc main_arg4)) shapeCasts_S20_S1x20 := by
  show StableHlo.after hostOps1 (W4 m ρ c) (Proc.devRef .tc main_v60)
    = shapeCast S1x20 (StableHlo.after hostOps1 (W4 m ρ c) (Proc.devRef .tc main_arg4)) shapeCasts_S20_S1x20
  dsimp only [hostOps1]
  after_results_simp
  rfl

set_option maxHeartbeats 4000000 in
/-- The shift row is the shift vector cast to one row. -/
theorem W5_shift (c : Dev nD) : W5 m ρ c (Proc.devRef .tc main_v61)
    = shapeCast S1x20 (W5 m ρ c (Proc.devRef .tc main_arg5)) shapeCasts_S20_S1x20 := by
  show StableHlo.after hostOps1 (W4 m ρ c) (Proc.devRef .tc main_v61)
    = shapeCast S1x20 (StableHlo.after hostOps1 (W4 m ρ c) (Proc.devRef .tc main_arg5)) shapeCasts_S20_S1x20
  dsimp only [hostOps1]
  after_results_simp
  rfl

end Cert.KernelIdeal.Stats

end
-- ==== Proof.LibRegionOp.lean ====
/-
  A pipelined region as one host operation on the buffer contents.

  A region replaces the contents of its own arrays and leaves every other buffer as it found it. A host operation
  replaces the contents of the buffers it writes and leaves every other buffer as it found it. So when an operation
  writes only arrays of the region, and at each of the region's arrays it leaves exactly what the region leaves there
  (for an array the region only reads: the contents it had), the region and the operation are the same function of
  the buffer contents. A program of regions among host operations is then one line of host operations, and its
  contents at any buffer are computed as a fold. Also here: the fold over a concatenation of two lines is the fold
  over the second from the fold over the first.
-/
import Idealize.ShloMosaic.Lib.Pipeline.FrameSuffix
import Idealize.ShloMosaic.Lib.StableHlo.Run

noncomputable section

namespace Cert.RegionOp

open Idealize.ShloMosaic Idealize.ShloMosaic.TcCoe Idealize.SL.Sem

variable {nD : Nat} {τ : Topo} {sig : RefSig} {Val : EltTy → Type}

/-- A region that leaves `A` in its arrays is the host operation `op` on the buffer contents, when `op` leaves `A w`
    in each array `w` of the region and writes no other buffer. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ))) (op : HloOp τ sig Val)
    (harr : ∀ w, A w = op.result V (Proc.devRef .tc (Pipeline.arrRef win w)))
    (hwr : ∀ b ∈ op.writes, ∃ w, Proc.devRef .tc (Pipeline.arrRef win w) = b) :
    Pipeline.withArrays win c V A = op.result V := by
  funext b
  by_cases h : ∃ w, Proc.devRef .tc (Pipeline.arrRef win w) = b
  · obtain ⟨w, rfl⟩ := h
    rw [Pipeline.withArrays_arr win hinj]
    exact harr w
  · unfold Pipeline.withArrays
    rw [dif_neg h]
    exact (op.result_of_not_mem V fun hb => h (hwr b hb)).symm

/-- An operation that writes the one buffer `y` leaves every other buffer as it was. -/
theorem result_keep (op : HloOp τ sig Val) (V : Valuation τ sig Val) (y r : Ref sig .tc)
    (hw : op.writes = {Proc.devRef .tc y}) (h : r ≠ y) : op.result V (Proc.devRef .tc r) = V (Proc.devRef .tc r) :=
  op.result_of_not_mem V (by rw [hw, Finset.mem_singleton]; exact StableHlo.devRef_ne_of_ne h)

/-- The fold over two lines in a row. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line of one. -/
theorem after_singleton (op : HloOp τ sig Val) (V : Valuation τ sig Val) : StableHlo.after [op] V = op.result V := rfl

end Cert.RegionOp

end
-- ==== Proof.RegionOps.lean ====
/-
  Each pipelined region as one host operation on the buffer contents.

  A region leaves its input arrays as it found them and its output array at what the block modules compute: the
  product of the whole input with the weights for the first and third regions, and the normalise-and-rectify
  function of the whole input and the statistics rows for the second. A host operation that writes that same value
  into the output buffer and nothing else is therefore the same function of the buffer contents as the region.
  For the first and third regions that operation is the host's general dot product; for the second it is the
  host's chain mean → centred squares → variance → reciprocal square root → scale → shift → maximum with zero, read
  off the input array and the scale and shift vectors, because the four statistics rows the region reads are, at
  the region's entry, the mean and variance of that input array and the two vectors, each cast to one row.
-/
import proofs.«100869_j65206193487903_1_alg».proof.Proof.Gen.KernelIdeal.Frame
import proofs.«100869_j65206193487903_1_alg».proof.Proof.Gen.ReferenceIdeal
import proofs.«100869_j65206193487903_1_alg».proof.Proof.Blocks0
import proofs.«100869_j65206193487903_1_alg».proof.Proof.Blocks1
import proofs.«100869_j65206193487903_1_alg».proof.Proof.Blocks2
import proofs.«100869_j65206193487903_1_alg».proof.Proof.Stats
import proofs.«100869_j65206193487903_1_alg».proof.Proof.LibRegionOp
import Idealize.ShloMosaic.Lib.StableHlo.Run

set_option maxRecDepth 16384

noncomputable section

namespace Cert.KernelIdeal.Ops

open Cert.KernelIdeal Cert.KernelIdeal.Gen
open Idealize.ShloMosaic Idealize.ShloMosaic.TcCoe Idealize.ShloMosaic.ValueIdx Idealize.SL.Sem
open Idealize.ShloMosaic.StableHlo (after_cons after_nil)
open Cert.Dense Cert.NormRelu Cert.KernelIdeal.Stats

/-! ## The three operations (for any float values) -/

section Operations
variable {F : FTy → Type} [FloatOps F]

/-- The first region's operation: the host's product of the flattened input with the first weight matrix. -/
abbrev op0 : HloOp τ sig (Elt F) :=
  StableHlo.binary main_v0 main_arg2 main_v31 ((fun l r => Host.dotGeneral (F := F) (φ₁ := .f32) (φ₂ := .f32) Cert.ReferenceIdeal.dot_S819200x2_S2x20_S819200x20_1_0_0_1_n_n none l r) : (⟨S819200x2, .f32⟩ : BufTy).Contents (Elt F) → (⟨S2x20, .f32⟩ : BufTy).Contents (Elt F) → (⟨S819200x20, .f32⟩ : BufTy).Contents (Elt F))

/-- The second region's operation: the host's normalisation chain of the aggregated array, stored in the shorter
    float format. -/
abbrev op1 : HloOp τ sig (Elt F) :=
  StableHlo.ternary main_v47 main_arg4 main_arg5 main_v62 ((fun a g b => truncf .bf16 (normalize a g b) bitsLt_bf16_f32) : (⟨S819200x20, .f32⟩ : BufTy).Contents (Elt F) → (⟨S20, .f32⟩ : BufTy).Contents (Elt F) → (⟨S20, .f32⟩ : BufTy).Contents (Elt F) → (⟨S819200x20, .bf16⟩ : BufTy).Contents (Elt F))

/-- The third region's operation: the host's product of the stored activations with the second weight matrix. -/
abbrev op2 : HloOp τ sig (Elt F) :=
  StableHlo.binary main_v62 main_arg6 main_v63 ((fun l r => Host.dotGeneral (F := F) (φ₁ := .bf16) (φ₂ := .f32) Cert.ReferenceIdeal.dot_S819200x20_S20x2_S819200x2_1_0_0_1_n_n none l r) : (⟨S819200x20, .bf16⟩ : BufTy).Contents (Elt F) → (⟨S20x2, .f32⟩ : BufTy).Contents (Elt F) → (⟨S819200x2, .f32⟩ : BufTy).Contents (Elt F))

end Operations

variable (m : (ℓ : Loc nD τ sig) → Buf (Elt Ideal) ℓ) (ρ : Dev nD → PrngReg)

/-! ## The first region -/

set_option maxHeartbeats 4000000 in
theorem W4_eq (c : Dev nD) : W4 m ρ c = op0.result (W3 m ρ c) := by
  unfold W4
  refine Cert.RegionOp.withArrays_eq_result spec0 launch0.win.arr_inj c (W3 m ρ c) _ op0 (fun w => ?_) (fun b hb => ?_)
  · match w with
    | ⟨0, _⟩ =>
      exact (((dat0 (V3 m ρ) c).arrAt_in 0 rfl _).trans (A_eq0 (V3 m ρ) c 0)).trans
        (Cert.RegionOp.result_keep op0 (W3 m ρ c) main_v31 main_v0 (StableHlo.binary_writes ..) (by decide)).symm
    | ⟨1, _⟩ =>
      exact (((dat0 (V3 m ρ) c).arrAt_in 1 rfl _).trans (A_eq0 (V3 m ρ) c 1)).trans
        (Cert.RegionOp.result_keep op0 (W3 m ρ c) main_v31 main_arg2 (StableHlo.binary_writes ..) (by decide)).symm
    | ⟨2, _⟩ =>
      refine (Cert.KernelIdeal.Region0.final (V3 m ρ) c).trans ?_
      refine Eq.trans ?_ (StableHlo.binary_result main_v0 main_arg2 main_v31 _ _ _ _ (W3 m ρ c)).symm
      exact (dotGeneral_plain (M := 819200) (K := 2) (N := 20) (V3 m ρ c main_v0) (V3 m ρ c main_arg2)).symm
  · rw [StableHlo.binary_writes, Finset.mem_singleton] at hb
    exact ⟨2, hb.symm⟩

/-! ## The second region -/

set_option maxHeartbeats 8000000 in
theorem W6_eq (c : Dev nD) : W6 m ρ c = op1.result (W5 m ρ c) := by
  unfold W6
  refine Cert.RegionOp.withArrays_eq_result spec1 launch1.win.arr_inj c (W5 m ρ c) _ op1 (fun w => ?_) (fun b hb => ?_)
  · match w with
    | ⟨0, _⟩ =>
      exact (((dat1 (V5 m ρ) c).arrAt_in 0 rfl _).trans (A_eq1 (V5 m ρ) c 0)).trans
        (Cert.RegionOp.result_keep op1 (W5 m ρ c) main_v62 main_v47 (StableHlo.ternary_writes ..) (by decide)).symm
    | ⟨1, _⟩ =>
      exact (((dat1 (V5 m ρ) c).arrAt_in 1 rfl _).trans (A_eq1 (V5 m ρ) c 1)).trans
        (Cert.RegionOp.result_keep op1 (W5 m ρ c) main_v62 main_v58 (StableHlo.ternary_writes ..) (by decide)).symm
    | ⟨2, _⟩ =>
      exact (((dat1 (V5 m ρ) c).arrAt_in 2 rfl _).trans (A_eq1 (V5 m ρ) c 2)).trans
        (Cert.RegionOp.result_keep op1 (W5 m ρ c) main_v62 main_v59 (StableHlo.ternary_writes ..) (by decide)).symm
    | ⟨3, _⟩ =>
      exact (((dat1 (V5 m ρ) c).arrAt_in 3 rfl _).trans (A_eq1 (V5 m ρ) c 3)).trans
        (Cert.RegionOp.result_keep op1 (W5 m ρ c) main_v62 main_v60 (StableHlo.ternary_writes ..) (by decide)).symm
    | ⟨4, _⟩ =>
      exact (((dat1 (V5 m ρ) c).arrAt_in 4 rfl _).trans (A_eq1 (V5 m ρ) c 4)).trans
        (Cert.RegionOp.result_keep op1 (W5 m ρ c) main_v62 main_v61 (StableHlo.ternary_writes ..) (by decide)).symm
    | ⟨5, _⟩ =>
      refine (Cert.KernelIdeal.Region1.final (V5 m ρ) c).trans ?_
      refine Eq.trans ?_ (StableHlo.ternary_result main_v47 main_arg4 main_arg5 main_v62 _ _ _ _ _ (W5 m ρ c)).symm
      show normRelu2 (M := 819200) (N := 20) (W5 m ρ c (Proc.devRef .tc main_v47)) (W5 m ρ c (Proc.devRef .tc main_v58))
          (W5 m ρ c (Proc.devRef .tc main_v59)) (W5 m ρ c (Proc.devRef .tc main_v60)) (W5 m ρ c (Proc.devRef .tc main_v61))
        = truncf .bf16 (normalize (F := Ideal) (W5 m ρ c (Proc.devRef .tc main_v47)) (W5 m ρ c (Proc.devRef .tc main_arg4)) (W5 m ρ c (Proc.devRef .tc main_arg5))) bitsLt_bf16_f32
      rw [truncf_id, W5_mean, W5_var, W5_scale, W5_shift, normalize_eq]
      exact normRelu2_cast _ _ _ _ _ _
  · rw [StableHlo.ternary_writes, Finset.mem_singleton] at hb
    exact ⟨5, hb.symm⟩

/-! ## The third region -/

set_option maxHeartbeats 4000000 in
theorem W7_eq (c : Dev nD) : W7 m ρ c = op2.result (W6 m ρ c) := by
  unfold W7
  refine Cert.RegionOp.withArrays_eq_result spec2 launch2.win.arr_inj c (W6 m ρ c) _ op2 (fun w => ?_) (fun b hb => ?_)
  · match w with
    | ⟨0, _⟩ =>
      exact (((dat2 (V6 m ρ) c).arrAt_in 0 rfl _).trans (A_eq2 (V6 m ρ) c 0)).trans
        (Cert.RegionOp.result_keep op2 (W6 m ρ c) main_v63 main_v62 (StableHlo.binary_writes ..) (by decide)).symm
    | ⟨1, _⟩ =>
      exact (((dat2 (V6 m ρ) c).arrAt_in 1 rfl _).trans (A_eq2 (V6 m ρ) c 1)).trans
        (Cert.RegionOp.result_keep op2 (W6 m ρ c) main_v63 main_arg6 (StableHlo.binary_writes ..) (by decide)).symm
    | ⟨2, _⟩ =>
      refine (Cert.KernelIdeal.Region2.final (V6 m ρ) c).trans ?_
      refine Eq.trans ?_ (StableHlo.binary_result main_v62 main_arg6 main_v63 _ _ _ _ (W6 m ρ c)).symm
      exact (dotGeneral_plain (M := 819200) (K := 20) (N := 2) (V6 m ρ c main_v62) (V6 m ρ c main_arg6)).symm
  · rw [StableHlo.binary_writes, Finset.mem_singleton] at hb
    exact ⟨2, hb.symm⟩

end Cert.KernelIdeal.Ops

end
-- ==== Proof.RefParts.lean ====
/-
  The reference's result term, cut at the two places where the kernel program has a pipelined region.

  The reference's run ends with its result buffer at one long term of the argument arrays. Two subterms of it are
  named here as functions: the aggregated array after the first convolution (the first product gathered along the
  edges, scaled by the edge coefficients, summed into the target nodes, plus the first bias), and everything the
  program does with the second product (the same aggregation with the second bias, and the final reshape). Between
  the two sit the normalisation chain and the second product. The long term is the second function applied to the
  product of the chain of the first function with the second weight matrix: the two sides are the same text.
-/
import proofs.«100869_j65206193487903_1_alg».proof.Proof.RefRun
import proofs.«100869_j65206193487903_1_alg».proof.Proof.Stats

set_option maxRecDepth 16384

noncomputable section

namespace Cert.ReferenceIdeal.Parts

open Cert.ReferenceIdeal Cert.ReferenceIdeal.Gen Idealize.ShloMosaic Idealize.ShloMosaic.TcCoe Idealize.SL.Sem

variable {F : FTy → Type} [FloatOps F]

/-- The aggregated array after the first convolution, as the reference computes it from the node features, the edge
    list, the first weight matrix and the first bias. -/
def aggregated (x0 : (⟨S64x512x50, .f32⟩ : BufTy).Contents (Elt F)) (x1 : (⟨S2x2000000, .i32⟩ : BufTy).Contents (Elt F))
    (x2 : (⟨S2x20, .f32⟩ : BufTy).Contents (Elt F)) (x3 : (⟨S20, .f32⟩ : BufTy).Contents (Elt F)) :
    (⟨S819200x20, .f32⟩ : BufTy).Contents (Elt F) :=
  (addf (Host.scatterAdd scatter_S819200x20_S2819200x1_S2819200x20_1_0_0_1 (broadcastInDim S819200x20 ![] bcast_S_S819200x20 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (mulf (Host.gather gather_S819200x20_S2819200x1_S2819200x20_1_0_n_n_0_1_120 (Host.dotGeneral dot_S819200x2_S2x20_S819200x20_1_0_0_1_n_n none (shapeCast _ x0 shapeCasts_S64x512x50_S819200x2) x2) (broadcastInDim S2819200x1 ![0] bcast_S2819200_S2819200x1_0 (select (cmpi .slt (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0)))) (broadcastInDim S2819200x20 ![0, 1] bcast_S2819200x1_S2819200x20_0_1 (broadcastInDim S2819200x1 ![0] bcast_S2819200_S2819200x1_0 (mulf (Host.gather gather_S819200_S2819200x1_S2819200_n_0_n_n_0_1_1 (select (cmpf (F := F) .ogt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32))) (broadcastInDim S819200 ![] bcast_S_S819200 (constant S_ .f32 0x00000000#32))) (Host.rsqrt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32)))) (broadcastInDim S819200 ![] bcast_S_S819200 (id (constant S_ .f32 0x00000000#32)))) (broadcastInDim S2819200x1 ![0] bcast_S2819200_S2819200x1_0 (select (cmpi .slt (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0)))) (Host.gather gather_S819200_S2819200x1_S2819200_n_0_n_n_0_1_1 (select (cmpf (F := F) .ogt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32))) (broadcastInDim S819200 ![] bcast_S_S819200 (constant S_ .f32 0x00000000#32))) (Host.rsqrt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32)))) (broadcastInDim S819200 ![] bcast_S_S819200 (id (constant S_ .f32 0x00000000#32)))) (broadcastInDim S2819200x1 ![0] bcast_S2819200_S2819200x1_0 (select (cmpi .slt (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0))))))))) (broadcastInDim S819200x20 ![0, 1] bcast_S1x20_S819200x20_0_1 (broadcastInDim S1x20 ![1] bcast_S20_S1x20_1 x3)))

/-- What the reference does with the second product: gather along the edges, scale, sum into the target nodes, add
    the second bias, reshape. -/
def finish (h : (⟨S819200x2, .f32⟩ : BufTy).Contents (Elt F)) (x1 : (⟨S2x2000000, .i32⟩ : BufTy).Contents (Elt F))
    (x7 : (⟨S2, .f32⟩ : BufTy).Contents (Elt F)) : (⟨S64x512x50, .f32⟩ : BufTy).Contents (Elt F) :=
  shapeCast _ (addf (Host.scatterAdd scatter_S819200x2_S2819200x1_S2819200x2_1_0_0_1 (broadcastInDim S819200x2 ![] bcast_S_S819200x2 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (mulf (Host.gather gather_S819200x2_S2819200x1_S2819200x2_1_0_n_n_0_1_12 h (broadcastInDim S2819200x1 ![0] bcast_S2819200_S2819200x1_0 (select (cmpi .slt (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0)))) (broadcastInDim S2819200x2 ![0, 1] bcast_S2819200x1_S2819200x2_0_1 (broadcastInDim S2819200x1 ![0] bcast_S2819200_S2819200x1_0 (mulf (Host.gather gather_S819200_S2819200x1_S2819200_n_0_n_n_0_1_1 (select (cmpf (F := F) .ogt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32))) (broadcastInDim S819200 ![] bcast_S_S819200 (constant S_ .f32 0x00000000#32))) (Host.rsqrt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32)))) (broadcastInDim S819200 ![] bcast_S_S819200 (id (constant S_ .f32 0x00000000#32)))) (broadcastInDim S2819200x1 ![0] bcast_S2819200_S2819200x1_0 (select (cmpi .slt (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![0, 0] x1 slices_S2x2000000_S1x2000000_0_0) shapeCasts_S1x2000000_S2000000)⟩, ⟨S819200, (iotaInDim S819200 32 0)⟩] concatenates_S2000000_S819200_S2819200_d0)))) (Host.gather gather_S819200_S2819200x1_S2819200_n_0_n_n_0_1_1 (select (cmpf (F := F) .ogt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32))) (broadcastInDim S819200 ![] bcast_S_S819200 (constant S_ .f32 0x00000000#32))) (Host.rsqrt (Host.scatterAdd scatter_S819200_S2819200x1_S2819200_n_0_0_1 (broadcastInDim S819200 ![] bcast_S_S819200 (constant S_ .f32 0x00000000#32)) (broadcastInDim S2819200x1 ![0] bcast_S2819200_S2819200x1_0 (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0)) (broadcastInDim S2819200 ![] bcast_S_S2819200 (constant S_ .f32 0x3F800000#32)))) (broadcastInDim S819200 ![] bcast_S_S819200 (id (constant S_ .f32 0x00000000#32)))) (broadcastInDim S2819200x1 ![0] bcast_S2819200_S2819200x1_0 (select (cmpi .slt (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0) (broadcastInDim S2819200 ![] bcast_S_S2819200 (constantI S_ 32 0#32))) (addi (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0) (broadcastInDim S2819200 ![] bcast_S_S2819200 (constantI S_ 32 819200#32))) (concatenate S2819200 0 [⟨S2000000, (shapeCast _ (extractStridedSlice S1x2000000 ![1, 0] x1 slices_S2x2000000_S1x2000000_1_0) shapeCasts_S1x2000000_S2000000)⟩, ⟨S819200, (iotaInDim S819200 32 0)⟩] concatenates_S2000000_S819200_S2819200_d0))))))))) (broadcastInDim S819200x2 ![0, 1] bcast_S1x2_S819200x2_0_1 (broadcastInDim S1x2 ![1] bcast_S2_S1x2_1 x7))) shapeCasts_S819200x2_S64x512x50

set_option maxHeartbeats 16000000 in
/-- The reference's result term is `finish` of the second product of the normalisation chain of `aggregated`. -/
theorem result_cut (m : (ℓ : Loc nD τ sig) → Buf (Elt F) ℓ) (c : Dev nD) :
    Cert.ReferenceIdeal.ValueP.res_main_v91 (F := F) m c
      = finish (Host.dotGeneral (F := F) (φ₁ := .f32) (φ₂ := .f32) dot_S819200x20_S20x2_S819200x2_1_0_0_1_n_n none
          (Cert.KernelIdeal.Stats.normalize
            (aggregated (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg4)) (m ((c.tc : Thread nD τ).loc main_arg5)))
          (m ((c.tc : Thread nD τ).loc main_arg6)))
        (m ((c.tc : Thread nD τ).loc main_arg1)) (m ((c.tc : Thread nD τ).loc main_arg7)) := by
  unfold Cert.ReferenceIdeal.ValueP.res_main_v91 finish aggregated
  rfl

end Cert.ReferenceIdeal.Parts

end
-- ==== Proof.Bridge.lean ====
/-
  The idealized kernel's result is the idealized reference's result.

  With each region replaced by its host operation, the kernel program's last boundary contents are the launch
  memory folded through one line of host operations, and that line is the reference program's line: the same
  operations on the same operands in the same order, a general dot product where the kernel has its first and third
  regions, and the normalisation chain where the kernel has its second. Written out, the contents of the kernel's
  result buffer are therefore the reference's result term cut at the same two places: the same finishing function
  of the second product of the normalisation chain of the same aggregated array. That is a statement about the two
  programs' texts, and it is proved for any float values. The one difference left is the float format in which the
  kernel stores the activations between its second and third regions, and on the extended reals a change of format
  is the identity.
-/
import proofs.«100869_j65206193487903_1_alg».proof.Proof.RegionOps
import proofs.«100869_j65206193487903_1_alg».proof.Proof.RefParts

set_option maxRecDepth 16384

noncomputable section

namespace Cert.Bridge

open Cert.KernelIdeal Cert.KernelIdeal.Gen Cert.KernelIdeal.Ops
open Idealize.ShloMosaic Idealize.ShloMosaic.TcCoe Idealize.SL.Sem
open Idealize.ShloMosaic.StableHlo

/-! ## The kernel program's line of operations, evaluated (for any float values) -/

section Line
variable {F : FTy → Type} [FloatOps F]

set_option maxHeartbeats 64000000 in
/-- From any buffer contents, the line of host operations with the three regions' operations in their places leaves
    the result buffer at the reference's finishing function of the second product of the stored normalisation
    chain of the reference's aggregated array, all read at the argument buffers. -/
theorem line_result (V : Valuation τ sig (Elt F)) :
    after hostOps3 (op2.result (op1.result (after hostOps1 (op0.result (after hostOps0_2 (after hostOps0_1 (after hostOps0 V)))))))
        (Proc.devRef .tc main_v80)
      = Cert.ReferenceIdeal.Parts.finish
          (Host.dotGeneral (F := F) (φ₁ := .bf16) (φ₂ := .f32) Cert.ReferenceIdeal.dot_S819200x20_S20x2_S819200x2_1_0_0_1_n_n none
            (truncf .bf16 (Cert.KernelIdeal.Stats.normalize
              (Cert.ReferenceIdeal.Parts.aggregated (V (Proc.devRef .tc main_arg0)) (V (Proc.devRef .tc main_arg1))
                (V (Proc.devRef .tc main_arg2)) (V (Proc.devRef .tc main_arg3)))
              (V (Proc.devRef .tc main_arg4)) (V (Proc.devRef .tc main_arg5))) bitsLt_bf16_f32)
            (V (Proc.devRef .tc main_arg6)))
          (V (Proc.devRef .tc main_arg1)) (V (Proc.devRef .tc main_arg7)) := by
  unfold Cert.ReferenceIdeal.Parts.finish Cert.ReferenceIdeal.Parts.aggregated
  dsimp only [hostOps3, hostOps1, hostOps0_2, hostOps0_1, hostOps0, op0, op1, op2]
  after_results_simp
  -- the operands of a concatenation sit inside dependent pairs: their contents are evaluated there one operation
  -- at a time
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  rfl

end Line

/-! ## On the extended reals -/

/-- A product whose left factor was stored in the shorter float format is the product of the unstored factor. -/
theorem stored_product (a : FVec Ideal S819200x20 .f32) (w : FVec Ideal S20x2 .f32) :
    Host.dotGeneral (F := Ideal) (φ₁ := .bf16) (φ₂ := .f32) Cert.ReferenceIdeal.dot_S819200x20_S20x2_S819200x2_1_0_0_1_n_n none
        (truncf .bf16 a bitsLt_bf16_f32) w
      = Host.dotGeneral (F := Ideal) (φ₁ := .f32) (φ₂ := .f32) Cert.ReferenceIdeal.dot_S819200x20_S20x2_S819200x2_1_0_0_1_n_n none a w := rfl

variable (m : (ℓ : Loc nD τ sig) → Buf (Elt Ideal) ℓ) (ρ : Dev nD → PrngReg)

/-- The last boundary's contents: the launch memory through the five stretches of host operations and the three
    regions' operations. -/
theorem W8_fold (c : Dev nD) : W8 m ρ c
    = after hostOps3 (op2.result (op1.result (after hostOps1 (op0.result (after hostOps0_2 (after hostOps0_1 (after hostOps0 (W0 m ρ c)))))))) := by
  show after hostOps3 (W7 m ρ c) = _
  rw [W7_eq, W6_eq]
  show after hostOps3 (op2.result (op1.result (after hostOps1 (W4 m ρ c)))) = _
  rw [W4_eq]

/-- The reference's result term, at argument arrays equal to the kernel's, is the kernel's result buffer's last
    contents. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.ValueP.res_main_v91 (F := Ideal) m' c = W8 m ρ c (Proc.devRef .tc main_v80) := by
  have e0 : m' ((c.tc : Thread Cert.ReferenceIdeal.nD Cert.ReferenceIdeal.τ).loc Cert.ReferenceIdeal.main_arg0) = W0 m ρ c (Proc.devRef .tc main_arg0) := h0
  have e1 : m' ((c.tc : Thread Cert.ReferenceIdeal.nD Cert.ReferenceIdeal.τ).loc Cert.ReferenceIdeal.main_arg1) = W0 m ρ c (Proc.devRef .tc main_arg1) := h1
  have e2 : m' ((c.tc : Thread Cert.ReferenceIdeal.nD Cert.ReferenceIdeal.τ).loc Cert.ReferenceIdeal.main_arg2) = W0 m ρ c (Proc.devRef .tc main_arg2) := h2
  have e3 : m' ((c.tc : Thread Cert.ReferenceIdeal.nD Cert.ReferenceIdeal.τ).loc Cert.ReferenceIdeal.main_arg3) = W0 m ρ c (Proc.devRef .tc main_arg3) := h3
  have e4 : m' ((c.tc : Thread Cert.ReferenceIdeal.nD Cert.ReferenceIdeal.τ).loc Cert.ReferenceIdeal.main_arg4) = W0 m ρ c (Proc.devRef .tc main_arg4) := h4
  have e5 : m' ((c.tc : Thread Cert.ReferenceIdeal.nD Cert.ReferenceIdeal.τ).loc Cert.ReferenceIdeal.main_arg5) = W0 m ρ c (Proc.devRef .tc main_arg5) := h5
  have e6 : m' ((c.tc : Thread Cert.ReferenceIdeal.nD Cert.ReferenceIdeal.τ).loc Cert.ReferenceIdeal.main_arg6) = W0 m ρ c (Proc.devRef .tc main_arg6) := h6
  have e7 : m' ((c.tc : Thread Cert.ReferenceIdeal.nD Cert.ReferenceIdeal.τ).loc Cert.ReferenceIdeal.main_arg7) = W0 m ρ c (Proc.devRef .tc main_arg7) := h7
  rw [Cert.ReferenceIdeal.Parts.result_cut, e0, e1, e2, e3, e4, e5, e6, e7, W8_fold, line_result, stored_product]

end Cert.Bridge

end
-- ==== Proof.lean ====
/-
  The certificate of a two-layer graph convolution with batch normalisation: the Pallas program against its jnp
  reference, on the extended reals.

  Both programs compute, from node features x (819200 nodes after flattening, 2 features), 2000000 directed edges with
  self loops added, and the layers' parameters: the symmetric normalisation coefficients of the edges from the node
  degrees; h₁ = x·W₁ gathered along the edges, scaled, summed into the target nodes, plus b₁; the column means and
  variances of that array; max(((h − μ)·(σ² + ε)^(−1/2))·γ + β, 0); and the same aggregation of that array times W₂, plus
  b₂. The host parts of the two programs are the same operations in the same order. The kernel program computes the
  two matrix products and the normalisation in three pipelined regions, block of rows by block of rows:
  * each region's output array is one function of its input arrays (modules Blocks0, Blocks1, Blocks2): a row of a
    product, and an entry of the normalisation, depends on the same row of the input only, and the blocks tile the
    output;
  * that function is what the reference's host operations compute there (module RegionOps): a matrix product into a
    zero accumulator and the host's general dot product are the same sum at every entry, changes of float format
    are the identity, and the statistics rows the second region reads are the reference's own mean and variance;
  * so the kernel program's result buffer ends at the reference's result term (module Bridge).
  No law used needs finiteness: the precondition is never opened. The three frame claims are the generated frames
  and the reference's run; no operation of the kernel was rewritten by the idealization, so that claim is trivial.
-/
import proofs.«100869_j65206193487903_1_alg».proof.Defs
import proofs.«100869_j65206193487903_1_alg».proof.Proof.Gen.Kernel
import proofs.«100869_j65206193487903_1_alg».proof.Proof.Gen.Kernel.Frame
import proofs.«100869_j65206193487903_1_alg».proof.Proof.Gen.KernelIdeal
import proofs.«100869_j65206193487903_1_alg».proof.Proof.Gen.KernelIdeal.Frame
import proofs.«100869_j65206193487903_1_alg».proof.Proof.Gen.ReferenceIdeal
import proofs.«100869_j65206193487903_1_alg».proof.Proof.Gen.Pre_finite_inputs
import proofs.«100869_j65206193487903_1_alg».proof.Proof.KernelRun
import proofs.«100869_j65206193487903_1_alg».proof.Proof.RefRun
import proofs.«100869_j65206193487903_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched: the generated frame. -/
theorem frame_k : @Cert.frame_Kernel Cert.Kernel.Gen.facts Cert.Pre_finite_inputs.Gen.facts :=
  fun m ρ _ => Cert.Kernel.Gen.frame m ρ

/-- The idealized kernel program likewise. -/
theorem frame_ki : @Cert.frame_KernelIdeal Cert.KernelIdeal.Gen.facts Cert.Pre_finite_inputs.Gen.facts :=
  fun m ρ _ => Cert.KernelIdeal.Gen.frame m ρ

/-- The idealized reference runs and leaves its arguments as launched: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the arguments both idealized programs run, and the kernel's result buffer ends at
    the reference's result term. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W8 m ρ c (Proc.devRef .tc Cert.KernelIdeal.main_v80),
    Cert.KernelIdeal.Whole.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  exact Cert.Bridge.result_eq m ρ m' c a0 a1 a2 a3 a4 a5 a6 a7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
